-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S2x1x1024 : Shape := ⟨3, ![2, 1, 1024]⟩
abbrev S512x1024 : Shape := ⟨2, ![512, 1024]⟩
abbrev S1x1x1024 : Shape := ⟨3, ![1, 1, 1024]⟩
abbrev S_ : Shape := ⟨0, ![]⟩

abbrev nBuf : Space → Nat
  | .hbm => 55
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_cst_5 : Ref sig .tc := ⟨.hbm, 36, rfl⟩
abbrev main_v15 : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_7 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

class Facts₀ : Prop where
  bitsLt_bf16_f32 : FTy.bits .bf16 < FTy.bits .f32
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S1024 : S512x1024.Reduces [0] S1024
  reducesTo_S2x1x1024_S_d0_1_2 : S2x1x1024.ReducesTo [0, 1, 2] S_
  h_S_ : 0 < S_.numel
  reducesTo_S2x1x1024_S1024_d0_1 : S2x1x1024.ReducesTo [0, 1] S1024
  bcast_S_S1024 : S_.BroadcastsInDim S1024 (![] : Fin 0 → Fin S1024.rank)
  reducesTo_S1024_S_d0 : S1024.ReducesTo [0] S_
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1024.size a ≤ S2x1x1024.size a
  hwx0_10 : ∀ i : grid0.Coords, EltTy.bits .f32 = 32 ∨ (Rect.block (s := S2x1x1024) S1x1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1024.size a ≤ S2x1x1024.size a
  hwx0_11 : ∀ i : grid0.Coords, EltTy.bits .f32 = 32 ∨ (Rect.block (s := S2x1x1024) S1x1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1024.size a ≤ S2x1x1024.size a
  hwx0_12 : ∀ i : grid0.Coords, EltTy.bits .f32 = 32 ∨ (Rect.block (s := S2x1x1024) S1x1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x1024.size a ≤ S2x1x1024.size a
  hwx0_13 : ∀ i : grid0.Coords, EltTy.bits .f32 = 32 ∨ (Rect.block (s := S2x1x1024) S1x1x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x1024.size a ≤ S2x1x1024.size a
  hwx0_14 : ∀ i : grid0.Coords, EltTy.bits .f32 = 32 ∨ (Rect.block (s := S2x1x1024) S1x1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x1024.size a ≤ S2x1x1024.size a
  hwx0_15 : ∀ i : grid0.Coords, EltTy.bits .f32 = 32 ∨ (Rect.block (s := S2x1x1024) S1x1x1024.size (cc0_transform_15 i) (hinb0_15 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S1x1x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S1x1x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_2) S1x1x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8_3) S1x1x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v8_4) S1x1x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v8_5) S1x1x1024.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16384 : Shape := ⟨1, ![16384]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S16384x1024_S1024_d0 : S16384x1024.ReducesTo [0] S1024
  h_S_ : 0 < S_.numel
  bcast_S_S1024 : S_.BroadcastsInDim S1024 (![] : Fin 0 → Fin S1024.rank)
  reducesTo_S16384x1024_S16384_d1 : S16384x1024.ReducesTo [1] S16384
  reducesTo_S16384_S_d0 : S16384.ReducesTo [0] S_
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Pieces.lean ====
/-
  What one grid point leaves in each of the six accumulator blocks, as a value.

  At a point that is not the first of its half of the batch the body leaves, in each accumulator block, the
  block's previous contents plus one column sum over the point's 512 rows; at the first point of a half it
  first stores a block of zeros and accumulates onto that. Each block is written by one store that covers it,
  so the block's contents are that store's value, a pure function of the point's input blocks.
-/
import proofs.«139930_j47794396070568_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Accumulator 0 after a later point of a half: its previous contents `xo10` plus this point's column sum. -/
theorem out_B_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) (xo10 : Vec F S1x1x1024 .f32) (xo11 : Vec F S1x1x1024 .f32) (xo12 : Vec F S1x1x1024 .f32) (xo13 : Vec F S1x1x1024 .f32) (xo14 : Vec F S1x1x1024 .f32) (xo15 : Vec F S1x1x1024 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15
      = k0_pay13 (k0_pay9 x0 x2 x3 x4 x5) (k0_pay10 x0 x6 x7) (k0_pay11 x8) x9 x1 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 0 after the first point of a half: the zero block plus this point's column sum. -/
theorem out_A_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = k0_pay13 (k0_pay9 x0 x2 x3 x4 x5) (k0_pay10 x0 x6 x7) (k0_pay11 x8) x9 x1 k0_pay2 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_cons_unit_zero (S := S1x1x1024) hz3]
  simp only [View.readCov_unit_zero (S := S1x1x1024) _ hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 1 after a later point of a half: its previous contents `xo11` plus this point's column sum. -/
theorem out_B_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) (xo10 : Vec F S1x1x1024 .f32) (xo11 : Vec F S1x1x1024 .f32) (xo12 : Vec F S1x1x1024 .f32) (xo13 : Vec F S1x1x1024 .f32) (xo14 : Vec F S1x1x1024 .f32) (xo15 : Vec F S1x1x1024 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15
      = k0_pay14 x1 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 1 after the first point of a half: the zero block plus this point's column sum. -/
theorem out_A_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = k0_pay14 x1 k0_pay3 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_cons_unit_zero (S := S1x1x1024) hz3]
  simp only [View.readCov_unit_zero (S := S1x1x1024) _ hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 2 after a later point of a half: its previous contents `xo12` plus this point's column sum. -/
theorem out_B_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) (xo10 : Vec F S1x1x1024 .f32) (xo11 : Vec F S1x1x1024 .f32) (xo12 : Vec F S1x1x1024 .f32) (xo13 : Vec F S1x1x1024 .f32) (xo14 : Vec F S1x1x1024 .f32) (xo15 : Vec F S1x1x1024 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15
      = k0_pay15 x1 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 2 after the first point of a half: the zero block plus this point's column sum. -/
theorem out_A_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = k0_pay15 x1 k0_pay4 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_cons_unit_zero (S := S1x1x1024) hz3]
  simp only [View.readCov_unit_zero (S := S1x1x1024) _ hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 3 after a later point of a half: its previous contents `xo13` plus this point's column sum. -/
theorem out_B_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) (xo10 : Vec F S1x1x1024 .f32) (xo11 : Vec F S1x1x1024 .f32) (xo12 : Vec F S1x1x1024 .f32) (xo13 : Vec F S1x1x1024 .f32) (xo14 : Vec F S1x1x1024 .f32) (xo15 : Vec F S1x1x1024 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15
      = k0_pay16 (k0_pay12 (k0_pay10 x0 x6 x7) (k0_pay11 x8) x9) xo13 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 3 after the first point of a half: the zero block plus this point's column sum. -/
theorem out_A_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = k0_pay16 (k0_pay12 (k0_pay10 x0 x6 x7) (k0_pay11 x8) x9) k0_pay5 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_cons_unit_zero (S := S1x1x1024) hz3]
  simp only [View.readCov_unit_zero (S := S1x1x1024) _ hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 4 after a later point of a half: its previous contents `xo14` plus this point's column sum. -/
theorem out_B_14 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) (xo10 : Vec F S1x1x1024 .f32) (xo11 : Vec F S1x1x1024 .f32) (xo12 : Vec F S1x1x1024 .f32) (xo13 : Vec F S1x1x1024 .f32) (xo14 : Vec F S1x1x1024 .f32) (xo15 : Vec F S1x1x1024 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15
      = k0_pay17 (k0_pay9 x0 x2 x3 x4 x5) (k0_pay12 (k0_pay10 x0 x6 x7) (k0_pay11 x8) x9) xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 4 after the first point of a half: the zero block plus this point's column sum. -/
theorem out_A_14 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = k0_pay17 (k0_pay9 x0 x2 x3 x4 x5) (k0_pay12 (k0_pay10 x0 x6 x7) (k0_pay11 x8) x9) k0_pay6 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_cons_unit_zero (S := S1x1x1024) hz3]
  simp only [View.readCov_unit_zero (S := S1x1x1024) _ hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 5 after a later point of a half: its previous contents `xo15` plus this point's column sum. -/
theorem out_B_15 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) (xo10 : Vec F S1x1x1024 .f32) (xo11 : Vec F S1x1x1024 .f32) (xo12 : Vec F S1x1x1024 .f32) (xo13 : Vec F S1x1x1024 .f32) (xo14 : Vec F S1x1x1024 .f32) (xo15 : Vec F S1x1x1024 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15
      = k0_pay1 (k0_pay18 (k0_pay9 x0 x2 x3 x4 x5) (k0_pay12 (k0_pay10 x0 x6 x7) (k0_pay11 x8) x9) xo15) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

/-- Accumulator 5 after the first point of a half: the zero block plus this point's column sum. -/
theorem out_A_15 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 i) (x0 : Vec F S512x1024 .f32) (x1 : Vec F S512x1024 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (x8 : Vec F S1024x1024 .bf16) (x9 : Vec F S1x1024 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = k0_pay1 (k0_pay18 (k0_pay9 x0 x2 x3 x4 x5) (k0_pay12 (k0_pay10 x0 x6 x7) (k0_pay11 x8) x9) k0_pay7) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_cons_unit_zero (S := S1x1x1024) hz3]
  simp only [View.readCov_unit_zero (S := S1x1x1024) _ hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1024x1024) hz2, View.ld_unit_zero (S := S1x1024) hz2, View.ld_unit_zero (S := S1x1x1024) hz3]

end Cert.KernelIdeal.Pieces
end
-- ==== Proof.PayAt.lean ====
/-
  The body's arithmetic read at an index, over the extended reals.

  A block of 512 rows goes through two perceptrons. Each matrix product, read at row `r` and column `d`, is the sum
  over the inner axis of the products of the operands' entries; a bias row broadcast over the rows reads its one
  row; the rectifier is the maximum with zero. Each of the six accumulators is updated to its previous contents plus
  a sum over the block's 512 rows, column by column.
-/
import proofs.«139930_j47794396070568_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen Idealize.ShloMosaic Idealize.ShloMosaic.ValueIdx

/-- The dimension record of the body's four matrix products: [512,1024] × [1024,1024], contracting the inner axis. -/
abbrev DD : DotDims S512x1024 S1024x1024 S512x1024 := dot_S512x1024_S1024x1024_S512x1024_1_0_0_1_n_n

theorem lhs0 (i : S512x1024.Idx) (q : DD.contr.Idx) : (DD.lhsIdx i q 0).val = (i 0).val := by
  unfold DotDims.lhsIdx
  rw [dif_neg (show ¬(0 : Fin S512x1024.rank) ∈ DD.lhsBatch by decide), dif_pos (show (0 : Fin S512x1024.rank) ∈ DD.lhsNonContracting by decide)]
  rfl
theorem lhs1 (i : S512x1024.Idx) (q : DD.contr.Idx) : (DD.lhsIdx i q 1).val = (q ⟨0, by decide⟩).val :=
  DD.lhsIdx_val_of_single rfl i q
theorem rhs0 (i : S512x1024.Idx) (q : DD.contr.Idx) : (DD.rhsIdx i q 0).val = (q ⟨0, by decide⟩).val :=
  DD.rhsIdx_val_of_single rfl i q
theorem rhs1 (i : S512x1024.Idx) (q : DD.contr.Idx) : (DD.rhsIdx i q 1).val = (i 1).val := by
  unfold DotDims.rhsIdx
  rw [dif_neg (show ¬(1 : Fin S1024x1024.rank) ∈ DD.rhsBatch by decide), dif_pos (show (1 : Fin S1024x1024.rank) ∈ DD.rhsNonContracting by decide)]
  rfl

/-- A matrix product into the zero block, read at row `r`, column `d`: the sum over the inner axis. -/
theorem mm_apply (l : FVec Ideal S512x1024 .bf16) (w : FVec Ideal S1024x1024 .bf16) (r : Fin 512) (d : Fin 1024) :
    matmul (F := Ideal) DD none l w (constant S512x1024 .f32 0x00000000#32) (ix2 r d)
      = ∑ k : Fin 1024, l (ix2 r k) * w (ix2 k d) := by
  simp only [matmul]
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 r d) ((contrEquiv1 DD 1024 rfl rfl).symm k) = ix2 r k := funext fun a => Fin.ext (by
    match a with
    | ⟨0, _⟩ => exact lhs0 _ _
    | ⟨1, _⟩ => exact (lhs1 _ _).trans hk)
  have er : DD.rhsIdx (ix2 r d) ((contrEquiv1 DD 1024 rfl rfl).symm k) = ix2 k d := funext fun a => Fin.ext (by
    match a with
    | ⟨0, _⟩ => exact (rhs0 _ _).trans hk
    | ⟨1, _⟩ => exact rhs1 _ _)
  rw [el, er]

/-- The hidden layer of one block: `max (x w + b) 0` at row `r` of the block, hidden unit `k`. -/
def hidB (x : Vec Ideal S512x1024 .f32) (w : Vec Ideal S1024x1024 .bf16) (b : Vec Ideal S1x1024 .f32) (r : Fin 512) (k : Fin 1024) : EReal :=
  max ((∑ j : Fin 1024, x (ix2 r j) * w (ix2 j k)) + b (ix2 (0 : Fin 1) k)) 0

/-- The perceptron of one block at row `r` of the block, feature `d`. -/
def ffB (x : Vec Ideal S512x1024 .f32) (w1 : Vec Ideal S1024x1024 .bf16) (b1 : Vec Ideal S1x1024 .f32)
    (w2 : Vec Ideal S1024x1024 .bf16) (b2 : Vec Ideal S1x1024 .f32) (r : Fin 512) (d : Fin 1024) : EReal :=
  (∑ k : Fin 1024, hidB x w1 b1 r k * w2 (ix2 k d)) + b2 (ix2 (0 : Fin 1) d)

/-- A bias row, cast to itself and broadcast over the 512 rows, reads its one row. -/
theorem bias_apply (b : Vec Ideal S1x1024 .f32) (r : Fin 512) (d : Fin 1024) :
    broadcastTo S512x1024 (shapeCast S1x1024 b shapeCasts_S1x1024_S1x1024) broadcasts_S1x1024_S512x1024 (ix2 r d)
      = b (ix2 (0 : Fin 1) d) := by
  rw [shapeCast_self]
  exact broadcastTo_1b_ab_apply b broadcasts_S1x1024_S512x1024 r d

theorem pay10_apply (x0 : Vec Ideal S512x1024 .f32) (x6 : Vec Ideal S1024x1024 .bf16) (x7 : Vec Ideal S1x1024 .f32)
    (r : Fin 512) (k : Fin 1024) : k0_pay10 (F := Ideal) x0 x6 x7 (ix2 r k) = hidB x0 x6 x7 r k := by
  unfold k0_pay10 k0_pay8 hidB
  show max ((matmul (F := Ideal) DD none _ _ (constant S512x1024 .f32 0x00000000#32)) (ix2 r k)
      + (broadcastTo S512x1024 (shapeCast S1x1024 x7 shapeCasts_S1x1024_S1x1024) broadcasts_S1x1024_S512x1024) (ix2 r k))
      (Ideal.ofBits .f32 0x00000000#32) = _
  rw [mm_apply, bias_apply, Ideal.ofBits_zero_f32, shapeCast_self]
  rfl

theorem pay9_apply (x0 : Vec Ideal S512x1024 .f32) (x2 : Vec Ideal S1024x1024 .bf16) (x3 : Vec Ideal S1x1024 .f32)
    (x4 : Vec Ideal S1024x1024 .bf16) (x5 : Vec Ideal S1x1024 .f32) (r : Fin 512) (d : Fin 1024) :
    k0_pay9 (F := Ideal) x0 x2 x3 x4 x5 (ix2 r d) = ffB x0 x2 x3 x4 x5 r d := by
  unfold k0_pay9 ffB
  show (matmul (F := Ideal) DD none _ _ (constant S512x1024 .f32 0x00000000#32)) (ix2 r d)
      + (broadcastTo S512x1024 (shapeCast S1x1024 x5 shapeCasts_S1x1024_S1x1024) broadcasts_S1x1024_S512x1024) (ix2 r d) = _
  rw [mm_apply, bias_apply]
  refine congrArg (· + x5 (ix2 (0 : Fin 1) d)) (Finset.sum_congr rfl fun k _ => ?_)
  rw [shapeCast_self x4]
  exact congrArg (· * x4 (ix2 k d)) (pay10_apply x0 x2 x3 r k)

/-- Half the exponential of minus the hyperbolic tangent of the log-variance perceptron, at row `r` of the block. -/
def sgB (x : Vec Ideal S512x1024 .f32) (w1 : Vec Ideal S1024x1024 .bf16) (b1 : Vec Ideal S1x1024 .f32)
    (w2 : Vec Ideal S1024x1024 .bf16) (b2 : Vec Ideal S1x1024 .f32) (r : Fin 512) (d : Fin 1024) : EReal :=
  Ideal.ofBits .f32 0x3F000000#32 * Ideal.exp (-(Ideal.tanh (ffB x w1 b1 w2 b2 r d)))

theorem pay12_apply (x0 : Vec Ideal S512x1024 .f32) (x6 : Vec Ideal S1024x1024 .bf16) (x7 : Vec Ideal S1x1024 .f32)
    (x8 : Vec Ideal S1024x1024 .bf16) (x9 : Vec Ideal S1x1024 .f32) (r : Fin 512) (d : Fin 1024) :
    k0_pay12 (F := Ideal) (k0_pay10 x0 x6 x7) (k0_pay11 x8) x9 (ix2 r d) = sgB x0 x6 x7 x8 x9 r d := by
  unfold k0_pay12 k0_pay11 sgB ffB
  show Ideal.ofBits .f32 0x3F000000#32 * Ideal.exp (Ideal.ofBits .f32 0x00000000#32
      - Ideal.tanh ((matmul (F := Ideal) DD none _ _ (constant S512x1024 .f32 0x00000000#32)) (ix2 r d)
        + (broadcastTo S512x1024 (shapeCast S1x1024 x9 shapeCasts_S1x1024_S1x1024) broadcasts_S1x1024_S512x1024) (ix2 r d))) = _
  rw [mm_apply, bias_apply, shapeCast_self, Ideal.ofBits_zero_f32, zero_sub]
  refine congrArg (fun t => Ideal.ofBits .f32 0x3F000000#32 * Ideal.exp (-(Ideal.tanh (t + x9 (ix2 (0 : Fin 1) d))))) ?_
  exact Finset.sum_congr rfl fun k _ => congrArg (· * x8 (ix2 k d)) (pay10_apply x0 x6 x7 r k)

/-- A sum over the 512 rows of a block, read at column `d`. -/
theorem lane_sum_apply (V : FVec Ideal S512x1024 .f32) (d : Fin 1024) :
    multiReduction (F := Ideal) .add [0] S1024 V 0x00000000#32 reduces_S512x1024_S1024 (.inl rfl) rfl (ix1 d)
      = ∑ r : Fin 512, V (ix2 r d) := by
  refine (Ideal.multiReduction_add_single V 0x00000000#32 reduces_S512x1024_S1024 (.inl rfl) rfl (ix1 d)).trans ?_
  show ∑ r : Fin 512, V (reduces_S512x1024_S1024.lift (ix1 d) r) = _
  refine Finset.sum_congr rfl fun r _ => congrArg V (funext fun a => ?_)
  match a with
  | ⟨0, _⟩ => rfl
  | ⟨1, _⟩ => rfl

/-- The shape of every accumulator update: the previous contents plus the column sums of `V`, read at column `d`. -/
theorem accum_apply (V : FVec Ideal S512x1024 .f32) (xo : Vec Ideal S1x1x1024 .f32) (d : Fin 1024) :
    shapeCast S1x1x1024 (addf (shapeCast S1x1024 xo shapeCasts_S1x1x1024_S1x1024)
        (shapeCast S1x1024 (multiReduction (F := Ideal) .add [0] S1024 V 0x00000000#32 reduces_S512x1024_S1024 (.inl rfl) rfl)
          shapeCasts_S1024_S1x1024)) shapeCasts_S1x1024_S1x1x1024 (ix3 (0 : Fin 1) (0 : Fin 1) d)
      = xo (ix3 (0 : Fin 1) (0 : Fin 1) d) + ∑ r : Fin 512, V (ix2 r d) := by
  rw [shapeCast_ab_1ab_apply]
  show shapeCast S1x1024 xo shapeCasts_S1x1x1024_S1x1024 (ix2 (0 : Fin 1) d)
      + shapeCast S1x1024 (multiReduction (F := Ideal) .add [0] S1024 V 0x00000000#32 reduces_S512x1024_S1024 (.inl rfl) rfl)
          shapeCasts_S1024_S1x1024 (ix2 (0 : Fin 1) d) = _
  rw [shapeCast_1ab_ab_apply, shapeCast_a_1a_apply, lane_sum_apply]

/-- A block of zeros reads zero. -/
theorem zero_block_apply (d : Fin 1024) :
    shapeCast S1x1x1024 (broadcast S1x1024 (Scalar.ofBits (F := Ideal) .f32 0x00000000#32)) shapeCasts_S1x1024_S1x1x1024
      (ix3 (0 : Fin 1) (0 : Fin 1) d) = 0 := by
  rw [shapeCast_ab_1ab_apply]
  exact Ideal.ofBits_zero_f32

theorem pay2_apply (d : Fin 1024) : k0_pay2 (F := Ideal) (ix3 (0 : Fin 1) (0 : Fin 1) d) = 0 := zero_block_apply d
theorem pay3_apply (d : Fin 1024) : k0_pay3 (F := Ideal) (ix3 (0 : Fin 1) (0 : Fin 1) d) = 0 := zero_block_apply d
theorem pay4_apply (d : Fin 1024) : k0_pay4 (F := Ideal) (ix3 (0 : Fin 1) (0 : Fin 1) d) = 0 := zero_block_apply d
theorem pay5_apply (d : Fin 1024) : k0_pay5 (F := Ideal) (ix3 (0 : Fin 1) (0 : Fin 1) d) = 0 := zero_block_apply d
theorem pay6_apply (d : Fin 1024) : k0_pay6 (F := Ideal) (ix3 (0 : Fin 1) (0 : Fin 1) d) = 0 := zero_block_apply d
theorem pay7_apply (d : Fin 1024) : k0_pay7 (F := Ideal) (ix3 (0 : Fin 1) (0 : Fin 1) d) = 0 := zero_block_apply d

variable (v21 v44 : FVec Ideal S512x1024 .f32) (x1 : Vec Ideal S512x1024 .f32) (xo : Vec Ideal S1x1x1024 .f32) (d : Fin 1024)

/-- The positive-term accumulator: plus the column sums of `−(mu − z)² · s`. -/
theorem pay13_apply (v31 : FVec Ideal S512x1024 .bf16) (v33 : FVec Ideal S1024x1024 .bf16) (v35 : Vec Ideal S1x1024 .f32) :
    k0_pay13 (F := Ideal) v21 v31 v33 v35 x1 xo (ix3 (0 : Fin 1) (0 : Fin 1) d)
      = xo (ix3 (0 : Fin 1) (0 : Fin 1) d)
        + ∑ r : Fin 512, (-((v21 (ix2 r d) - x1 (ix2 r d)) * (v21 (ix2 r d) - x1 (ix2 r d)))) * k0_pay12 v31 v33 v35 (ix2 r d) := by
  unfold k0_pay13
  refine (accum_apply _ xo d).trans (congrArg (xo (ix3 (0 : Fin 1) (0 : Fin 1) d) + ·) (Finset.sum_congr rfl fun r _ => ?_))
  show (Ideal.ofBits .f32 0x00000000#32 - (v21 (ix2 r d) - x1 (ix2 r d)) * (v21 (ix2 r d) - x1 (ix2 r d))) * _ = _
  rw [Ideal.ofBits_zero_f32, zero_sub]

/-- The accumulator of `z`: plus its column sums. -/
theorem pay14_apply : k0_pay14 (F := Ideal) x1 xo (ix3 (0 : Fin 1) (0 : Fin 1) d)
      = xo (ix3 (0 : Fin 1) (0 : Fin 1) d) + ∑ r : Fin 512, x1 (ix2 r d) := by
  unfold k0_pay14
  exact accum_apply _ xo d

/-- The accumulator of `z²`. -/
theorem pay15_apply : k0_pay15 (F := Ideal) x1 xo (ix3 (0 : Fin 1) (0 : Fin 1) d)
      = xo (ix3 (0 : Fin 1) (0 : Fin 1) d) + ∑ r : Fin 512, x1 (ix2 r d) * x1 (ix2 r d) := by
  unfold k0_pay15
  exact accum_apply _ xo d

/-- The accumulator of `s`. -/
theorem pay16_apply : k0_pay16 (F := Ideal) v44 xo (ix3 (0 : Fin 1) (0 : Fin 1) d)
      = xo (ix3 (0 : Fin 1) (0 : Fin 1) d) + ∑ r : Fin 512, v44 (ix2 r d) := by
  unfold k0_pay16
  exact accum_apply _ xo d

/-- The accumulator of `mu · s`. -/
theorem pay17_apply : k0_pay17 (F := Ideal) v21 v44 xo (ix3 (0 : Fin 1) (0 : Fin 1) d)
      = xo (ix3 (0 : Fin 1) (0 : Fin 1) d) + ∑ r : Fin 512, v21 (ix2 r d) * v44 (ix2 r d) := by
  unfold k0_pay17
  exact accum_apply _ xo d

/-- The accumulator of `mu² · s`. -/
theorem pay18_apply : k0_pay1 (F := Ideal) (k0_pay18 v21 v44 xo) (ix3 (0 : Fin 1) (0 : Fin 1) d)
      = xo (ix3 (0 : Fin 1) (0 : Fin 1) d) + ∑ r : Fin 512, (v21 (ix2 r d) * v21 (ix2 r d)) * v44 (ix2 r d) := by
  unfold k0_pay1 k0_pay18
  exact accum_apply _ xo d

end Cert.KernelIdeal.PayAt
end
-- ==== Proof.Spec.lean ====
/-
  The specification both programs are compared through, over the extended reals.

  Rows are indexed by `Fin 16384`, features by `Fin 1024`. For an input row `x i`, a two-layer perceptron is
  `ff x W1 b1 W2 b2 i d = (∑ k, max ((∑ j, x i j · W1 j k) + b1 k) 0 · W2 k d) + b2 d`. With `mu` the perceptron of the
  mean branch, `s = half · exp (−tanh (perceptron of the log-variance branch))` and `z` the second input, the estimate is
  `(∑ i d, (pos i d − neg i d)) / n` where `pos = −(mu − z)² · s` and `neg = −((E2 − two·mu·E1) + mu²) · s`, `E1`, `E2`
  the column means of `z` and `z²` (`refVal`). The blocked form (`kerVal`) first sums every per-row quantity over the
  rows of each half of the batch, block of 512 rows by block (`acc`), adds the two halves (`colsum`), and only then
  combines the column sums: `((∑ pos) − (−∑ d, ((E2·S0 − (two·E1)·S1) + S2))) / n`.
-/
import Idealize.ShloMosaic.PureOps.Ideal
import Idealize.ShloMosaic.Lib.ValueIdx

noncomputable section

namespace Cert.ClubSpec

open Idealize.ShloMosaic Idealize.ShloMosaic.ValueIdx

/-- A matrix of extended reals with `r` rows and `c` columns, indexed as the programs index a rank-2 array. -/
abbrev Mat (r c : Nat) : Type := (⟨2, ![r, c]⟩ : Shape).Idx → EReal
/-- A vector of extended reals of length `n`, indexed as the programs index a rank-1 array. -/
abbrev Row (n : Nat) : Type := (⟨1, ![n]⟩ : Shape).Idx → EReal

/-- The hidden layer: `max (x W1 + b1) 0` at row `i`, hidden unit `k`. -/
def hid (x : Mat 16384 1024) (W1 : Mat 1024 1024) (b1 : Row 1024) (i : Fin 16384) (k : Fin 1024) : EReal :=
  max ((∑ j : Fin 1024, x (ix2 i j) * W1 (ix2 j k)) + b1 (ix1 k)) 0

/-- The two-layer perceptron at row `i`, feature `d`. -/
def ff (x : Mat 16384 1024) (W1 : Mat 1024 1024) (b1 : Row 1024) (W2 : Mat 1024 1024) (b2 : Row 1024)
    (i : Fin 16384) (d : Fin 1024) : EReal :=
  (∑ k : Fin 1024, hid x W1 b1 i k * W2 (ix2 k d)) + b2 (ix1 d)

/-- `half · exp (−tanh ℓ)` of the log-variance perceptron `ℓ`: the inverse of twice the variance. -/
def sigma (half : EReal) (x : Mat 16384 1024) (W1 : Mat 1024 1024) (b1 : Row 1024) (W2 : Mat 1024 1024) (b2 : Row 1024)
    (i : Fin 16384) (d : Fin 1024) : EReal :=
  half * Ideal.exp (-(Ideal.tanh (ff x W1 b1 W2 b2 i d)))

variable (two n : EReal) (mu s z : Fin 16384 → Fin 1024 → EReal)

/-- The positive term `−(mu − z)² · s`. -/
def posT (i : Fin 16384) (d : Fin 1024) : EReal := (-((mu i d - z i d) * (mu i d - z i d))) * s i d

/-- The mean over the rows of column `d` of `X`. -/
def meanCol (X : Fin 16384 → Fin 1024 → EReal) (d : Fin 1024) : EReal := Ideal.div (∑ i : Fin 16384, X i d) n

/-- The negative term `−((E2 − (two · mu) · E1) + mu²) · s`, `E1` and `E2` the column means of `z` and `z²`. -/
def negT (i : Fin 16384) (d : Fin 1024) : EReal :=
  (-((meanCol n (fun i d => z i d * z i d) d - (two * mu i d) * meanCol n z d) + mu i d * mu i d)) * s i d

/-- The estimate as the row-by-row program computes it. -/
def refVal : EReal := Ideal.div (∑ i : Fin 16384, ∑ d : Fin 1024, (posT mu s z i d - negT two n mu s z i d)) n

/-- Row `r` of block `j` of half `c` of the batch: `8192 c + 512 j + r`. -/
def row (c : Fin 2) (j : Fin 16) (r : Fin 512) : Fin 16384 :=
  ⟨c.val * 8192 + j.val * 512 + r.val, by have := c.isLt; have := j.isLt; have := r.isLt; omega⟩

/-- The sum of column `d` of `X` over the rows of half `c`, block by block. -/
def acc (X : Fin 16384 → Fin 1024 → EReal) (c : Fin 2) (d : Fin 1024) : EReal :=
  ∑ j : Fin 16, ∑ r : Fin 512, X (row c j r) d

/-- The two halves added: the sum of column `d` of `X` over all rows. -/
def colsum (X : Fin 16384 → Fin 1024 → EReal) (d : Fin 1024) : EReal := ∑ c : Fin 2, acc X c d

/-- The estimate as the blocked program computes it. -/
def kerVal : EReal :=
  Ideal.div
    ((∑ c : Fin 2, ∑ d : Fin 1024, acc (posT mu s z) c d)
      - (-(∑ d : Fin 1024,
            (((Ideal.div (colsum (fun i d => z i d * z i d) d) n) * colsum s d
              - (two * Ideal.div (colsum z d) n) * colsum (fun i d => mu i d * s i d) d)
             + colsum (fun i d => (mu i d * mu i d) * s i d) d))))
    n

end Cert.ClubSpec

end
-- ==== Proof.Blocks.lean ====
/-
  A window's block at a grid point, read off the argument arrays.

  Point `t` of the 32 reads rows `512 t … 512 t + 511` of the two batch inputs; the weight and bias windows hold their
  whole arrays at every point. The weights reach the region through a change of float format, which is the identity
  on the extended reals, and the biases through a reshape of a vector into a one-row matrix. So the perceptrons of a
  block are the specification's perceptrons at the block's rows.
-/
import proofs.«139930_j47794396070568_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import proofs.«139930_j47794396070568_2_alg».proof.Proof.PayAt
import proofs.«139930_j47794396070568_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- Row `r` of the block of 512 rows that grid point `t` reads: `512 t + r`. -/
def rowOf (t : Fin cfg0.N) (r : Fin 512) : Fin 16384 :=
  ⟨t.val * 512 + r.val, by have h : t.val < 32 := lt_of_lt_of_eq t.isLt N_0; have := r.isLt; omega⟩

/-- The two batch windows move down one block of rows per point; every other input window stays at the origin. -/
theorem idx_facts : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) :=
  (by decide +kernel : ∀ t : Fin grid0.N, _)

theorem iblk0_apply (c : Dev nD) (t : Fin cfg0.N) (r : Fin 512) (j : Fin 1024) :
    (iblk m c 0 t : Vec Ideal S512x1024 .f32) (ix2 r j) = m ((c : Thread nD τ).loc main_arg0) (ix2 (rowOf t r) j) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx_facts t).1.1]; omega
  | ⟨1, _⟩ => show win0_0.index t 1 * 1024 + 1 * j.val = j.val; rw [(idx_facts t).1.2]; omega

theorem iblk1_apply (c : Dev nD) (t : Fin cfg0.N) (r : Fin 512) (j : Fin 1024) :
    (iblk m c 1 t : Vec Ideal S512x1024 .f32) (ix2 r j) = m ((c : Thread nD τ).loc main_arg1) (ix2 (rowOf t r) j) := by
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [(idx_facts t).2.1.1]; omega
  | ⟨1, _⟩ => show win0_1.index t 1 * 1024 + 1 * j.val = j.val; rw [(idx_facts t).2.1.2]; omega

theorem V_main_v0_apply (c : Dev nD) (i : S1024x1024.Idx) :
    V m c main_v0 i = m ((c : Thread nD τ).loc main_arg2) i := by
  have e : V m c main_v0 = truncf (F := Ideal) (s := S1024x1024) (φ := .f32) .bf16 (m ((c : Thread nD τ).loc main_arg2)) bitsLt_bf16_f32 := by
    show StableHlo.after hostOps0 (fun b => m (c, b)) (Proc.devRef .tc main_v0) = _
    after_results
    try rfl
  rw [e]
  rfl

theorem iblk2_apply (c : Dev nD) (t : Fin cfg0.N) (j : Fin 1024) (k : Fin 1024) :
    (iblk m c 2 t : Vec Ideal S1024x1024 .bf16) (ix2 j k) = m ((c : Thread nD τ).loc main_arg2) (ix2 j k) := by
  unfold iblk
  rw [View.read_apply]
  show V m c main_v0 _ = _
  rw [V_main_v0_apply]
  congr 1
  funext a
  apply Fin.ext
  match a with
  | ⟨0, _⟩ => show win0_2.index t 0 * 1024 + 1 * j.val = j.val; rw [(idx_facts t).2.2.1.1]; omega
  | ⟨1, _⟩ => show win0_2.index t 1 * 1024 + 1 * k.val = k.val; rw [(idx_facts t).2.2.1.2]; omega

theorem V_main_v1_apply (c : Dev nD) (i : S1024x1024.Idx) :
    V m c main_v1 i = m ((c : Thread nD τ).loc main_arg4) i := by
  have e : V m c main_v1 = truncf (F := Ideal) (s := S1024x1024) (φ := .f32) .bf16 (m ((c : Thread nD τ).loc main_arg4)) bitsLt_bf16_f32 := by
    show StableHlo.after hostOps0 (fun b => m (c, b)) (Proc.devRef .tc main_v1) = _
    after_results
    try rfl
  rw [e]
  rfl

theorem iblk4_apply (c : Dev nD) (t : Fin cfg0.N) (j : Fin 1024) (k : Fin 1024) :
    (iblk m c 4 t : Vec Ideal S1024x1024 .bf16) (ix2 j k) = m ((c : Thread nD τ).loc main_arg4) (ix2 j k) := by
  unfold iblk
  rw [View.read_apply]
  show V m c main_v1 _ = _
  rw [V_main_v1_apply]
  congr 1
  funext a
  apply Fin.ext
  match a with
  | ⟨0, _⟩ => show win0_4.index t 0 * 1024 + 1 * j.val = j.val; rw [(idx_facts t).2.2.2.2.1.1]; omega
  | ⟨1, _⟩ => show win0_4.index t 1 * 1024 + 1 * k.val = k.val; rw [(idx_facts t).2.2.2.2.1.2]; omega

theorem V_main_v2_apply (c : Dev nD) (i : S1024x1024.Idx) :
    V m c main_v2 i = m ((c : Thread nD τ).loc main_arg6) i := by
  have e : V m c main_v2 = truncf (F := Ideal) (s := S1024x1024) (φ := .f32) .bf16 (m ((c : Thread nD τ).loc main_arg6)) bitsLt_bf16_f32 := by
    show StableHlo.after hostOps0 (fun b => m (c, b)) (Proc.devRef .tc main_v2) = _
    after_results
    try rfl
  rw [e]
  rfl

theorem iblk6_apply (c : Dev nD) (t : Fin cfg0.N) (j : Fin 1024) (k : Fin 1024) :
    (iblk m c 6 t : Vec Ideal S1024x1024 .bf16) (ix2 j k) = m ((c : Thread nD τ).loc main_arg6) (ix2 j k) := by
  unfold iblk
  rw [View.read_apply]
  show V m c main_v2 _ = _
  rw [V_main_v2_apply]
  congr 1
  funext a
  apply Fin.ext
  match a with
  | ⟨0, _⟩ => show win0_6.index t 0 * 1024 + 1 * j.val = j.val; rw [(idx_facts t).2.2.2.2.2.2.1.1]; omega
  | ⟨1, _⟩ => show win0_6.index t 1 * 1024 + 1 * k.val = k.val; rw [(idx_facts t).2.2.2.2.2.2.1.2]; omega

theorem V_main_v3_apply (c : Dev nD) (i : S1024x1024.Idx) :
    V m c main_v3 i = m ((c : Thread nD τ).loc main_arg8) i := by
  have e : V m c main_v3 = truncf (F := Ideal) (s := S1024x1024) (φ := .f32) .bf16 (m ((c : Thread nD τ).loc main_arg8)) bitsLt_bf16_f32 := by
    show StableHlo.after hostOps0 (fun b => m (c, b)) (Proc.devRef .tc main_v3) = _
    after_results
    try rfl
  rw [e]
  rfl

theorem iblk8_apply (c : Dev nD) (t : Fin cfg0.N) (j : Fin 1024) (k : Fin 1024) :
    (iblk m c 8 t : Vec Ideal S1024x1024 .bf16) (ix2 j k) = m ((c : Thread nD τ).loc main_arg8) (ix2 j k) := by
  unfold iblk
  rw [View.read_apply]
  show V m c main_v3 _ = _
  rw [V_main_v3_apply]
  congr 1
  funext a
  apply Fin.ext
  match a with
  | ⟨0, _⟩ => show win0_8.index t 0 * 1024 + 1 * j.val = j.val; rw [(idx_facts t).2.2.2.2.2.2.2.2.1.1]; omega
  | ⟨1, _⟩ => show win0_8.index t 1 * 1024 + 1 * k.val = k.val; rw [(idx_facts t).2.2.2.2.2.2.2.2.1.2]; omega

theorem V_main_v4_apply (c : Dev nD) (k : Fin 1024) :
    V m c main_v4 (ix2 (0 : Fin 1) k) = m ((c : Thread nD τ).loc main_arg3) (ix1 k) := by
  have e : V m c main_v4 = shapeCast (s := S1024) (α := EReal) S1x1024 (m ((c : Thread nD τ).loc main_arg3)) shapeCasts_S1024_S1x1024 := by
    show StableHlo.after hostOps0 (fun b => m (c, b)) (Proc.devRef .tc main_v4) = _
    after_results
    try rfl
  rw [e]
  exact shapeCast_a_1a_apply _ _ _ _

theorem iblk3_apply (c : Dev nD) (t : Fin cfg0.N) (k : Fin 1024) :
    (iblk m c 3 t : Vec Ideal S1x1024 .f32) (ix2 (0 : Fin 1) k) = m ((c : Thread nD τ).loc main_arg3) (ix1 k) := by
  unfold iblk
  rw [View.read_apply]
  show V m c main_v4 _ = _
  rw [← V_main_v4_apply m c k]
  congr 1
  funext a
  apply Fin.ext
  match a with
  | ⟨0, _⟩ => show win0_3.index t 0 * 1 + 1 * 0 = 0; rw [(idx_facts t).2.2.2.1.1]
  | ⟨1, _⟩ => show win0_3.index t 1 * 1024 + 1 * k.val = k.val; rw [(idx_facts t).2.2.2.1.2]; omega

theorem V_main_v5_apply (c : Dev nD) (k : Fin 1024) :
    V m c main_v5 (ix2 (0 : Fin 1) k) = m ((c : Thread nD τ).loc main_arg5) (ix1 k) := by
  have e : V m c main_v5 = shapeCast (s := S1024) (α := EReal) S1x1024 (m ((c : Thread nD τ).loc main_arg5)) shapeCasts_S1024_S1x1024 := by
    show StableHlo.after hostOps0 (fun b => m (c, b)) (Proc.devRef .tc main_v5) = _
    after_results
    try rfl
  rw [e]
  exact shapeCast_a_1a_apply _ _ _ _

theorem iblk5_apply (c : Dev nD) (t : Fin cfg0.N) (k : Fin 1024) :
    (iblk m c 5 t : Vec Ideal S1x1024 .f32) (ix2 (0 : Fin 1) k) = m ((c : Thread nD τ).loc main_arg5) (ix1 k) := by
  unfold iblk
  rw [View.read_apply]
  show V m c main_v5 _ = _
  rw [← V_main_v5_apply m c k]
  congr 1
  funext a
  apply Fin.ext
  match a with
  | ⟨0, _⟩ => show win0_5.index t 0 * 1 + 1 * 0 = 0; rw [(idx_facts t).2.2.2.2.2.1.1]
  | ⟨1, _⟩ => show win0_5.index t 1 * 1024 + 1 * k.val = k.val; rw [(idx_facts t).2.2.2.2.2.1.2]; omega

theorem V_main_v6_apply (c : Dev nD) (k : Fin 1024) :
    V m c main_v6 (ix2 (0 : Fin 1) k) = m ((c : Thread nD τ).loc main_arg7) (ix1 k) := by
  have e : V m c main_v6 = shapeCast (s := S1024) (α := EReal) S1x1024 (m ((c : Thread nD τ).loc main_arg7)) shapeCasts_S1024_S1x1024 := by
    show StableHlo.after hostOps0 (fun b => m (c, b)) (Proc.devRef .tc main_v6) = _
    after_results
    try rfl
  rw [e]
  exact shapeCast_a_1a_apply _ _ _ _

theorem iblk7_apply (c : Dev nD) (t : Fin cfg0.N) (k : Fin 1024) :
    (iblk m c 7 t : Vec Ideal S1x1024 .f32) (ix2 (0 : Fin 1) k) = m ((c : Thread nD τ).loc main_arg7) (ix1 k) := by
  unfold iblk
  rw [View.read_apply]
  show V m c main_v6 _ = _
  rw [← V_main_v6_apply m c k]
  congr 1
  funext a
  apply Fin.ext
  match a with
  | ⟨0, _⟩ => show win0_7.index t 0 * 1 + 1 * 0 = 0; rw [(idx_facts t).2.2.2.2.2.2.2.1.1]
  | ⟨1, _⟩ => show win0_7.index t 1 * 1024 + 1 * k.val = k.val; rw [(idx_facts t).2.2.2.2.2.2.2.1.2]; omega

theorem V_main_v7_apply (c : Dev nD) (k : Fin 1024) :
    V m c main_v7 (ix2 (0 : Fin 1) k) = m ((c : Thread nD τ).loc main_arg9) (ix1 k) := by
  have e : V m c main_v7 = shapeCast (s := S1024) (α := EReal) S1x1024 (m ((c : Thread nD τ).loc main_arg9)) shapeCasts_S1024_S1x1024 := by
    show StableHlo.after hostOps0 (fun b => m (c, b)) (Proc.devRef .tc main_v7) = _
    after_results
    try rfl
  rw [e]
  exact shapeCast_a_1a_apply _ _ _ _

theorem iblk9_apply (c : Dev nD) (t : Fin cfg0.N) (k : Fin 1024) :
    (iblk m c 9 t : Vec Ideal S1x1024 .f32) (ix2 (0 : Fin 1) k) = m ((c : Thread nD τ).loc main_arg9) (ix1 k) := by
  unfold iblk
  rw [View.read_apply]
  show V m c main_v7 _ = _
  rw [← V_main_v7_apply m c k]
  congr 1
  funext a
  apply Fin.ext
  match a with
  | ⟨0, _⟩ => show win0_9.index t 0 * 1 + 1 * 0 = 0; rw [(idx_facts t).2.2.2.2.2.2.2.2.2.1]
  | ⟨1, _⟩ => show win0_9.index t 1 * 1024 + 1 * k.val = k.val; rw [(idx_facts t).2.2.2.2.2.2.2.2.2.2]; omega

open Cert.KernelIdeal.PayAt Cert.ClubSpec

/-- A block's hidden layer is the specification's, when the block's entries are the arrays' entries at the block's rows. -/
theorem hidB_eq_hid (x : Vec Ideal S512x1024 .f32) (w : Vec Ideal S1024x1024 .bf16) (b : Vec Ideal S1x1024 .f32)
    (X : Mat 16384 1024) (W : Mat 1024 1024) (B : Row 1024) (i : Fin 512 → Fin 16384)
    (hx : ∀ r j, x (ix2 r j) = X (ix2 (i r) j)) (hw : ∀ j k, w (ix2 j k) = W (ix2 j k)) (hb : ∀ k, b (ix2 (0 : Fin 1) k) = B (ix1 k))
    (r : Fin 512) (k : Fin 1024) : hidB x w b r k = hid X W B (i r) k := by
  unfold hidB hid
  simp only [hx, hw, hb]

/-- A block's perceptron is the specification's at the block's rows. -/
theorem ffB_eq_ff (x : Vec Ideal S512x1024 .f32) (w1 : Vec Ideal S1024x1024 .bf16) (b1 : Vec Ideal S1x1024 .f32)
    (w2 : Vec Ideal S1024x1024 .bf16) (b2 : Vec Ideal S1x1024 .f32)
    (X : Mat 16384 1024) (W1 : Mat 1024 1024) (B1 : Row 1024) (W2 : Mat 1024 1024) (B2 : Row 1024) (i : Fin 512 → Fin 16384)
    (hx : ∀ r j, x (ix2 r j) = X (ix2 (i r) j)) (hw1 : ∀ j k, w1 (ix2 j k) = W1 (ix2 j k)) (hb1 : ∀ k, b1 (ix2 (0 : Fin 1) k) = B1 (ix1 k))
    (hw2 : ∀ j k, w2 (ix2 j k) = W2 (ix2 j k)) (hb2 : ∀ k, b2 (ix2 (0 : Fin 1) k) = B2 (ix1 k))
    (r : Fin 512) (d : Fin 1024) : ffB x w1 b1 w2 b2 r d = ff X W1 B1 W2 B2 (i r) d := by
  unfold ffB ff
  simp only [hidB_eq_hid x w1 b1 X W1 B1 i hx hw1 hb1, hw2, hb2]

/-- A block's inverse doubled variance is the specification's at the block's rows. -/
theorem sgB_eq_sigma (x : Vec Ideal S512x1024 .f32) (w1 : Vec Ideal S1024x1024 .bf16) (b1 : Vec Ideal S1x1024 .f32)
    (w2 : Vec Ideal S1024x1024 .bf16) (b2 : Vec Ideal S1x1024 .f32)
    (X : Mat 16384 1024) (W1 : Mat 1024 1024) (B1 : Row 1024) (W2 : Mat 1024 1024) (B2 : Row 1024) (i : Fin 512 → Fin 16384)
    (hx : ∀ r j, x (ix2 r j) = X (ix2 (i r) j)) (hw1 : ∀ j k, w1 (ix2 j k) = W1 (ix2 j k)) (hb1 : ∀ k, b1 (ix2 (0 : Fin 1) k) = B1 (ix1 k))
    (hw2 : ∀ j k, w2 (ix2 j k) = W2 (ix2 j k)) (hb2 : ∀ k, b2 (ix2 (0 : Fin 1) k) = B2 (ix1 k))
    (r : Fin 512) (d : Fin 1024) :
    sgB x w1 b1 w2 b2 r d = sigma (Ideal.ofBits .f32 0x3F000000#32) X W1 B1 W2 B2 (i r) d := by
  unfold sgB sigma
  rw [ffB_eq_ff x w1 b1 w2 b2 X W1 B1 W2 B2 i hx hw1 hb1 hw2 hb2]

end Cert.KernelIdeal.Blocks
end
-- ==== Proof.Step.lean ====
/-
  One grid point's contribution to each accumulator, in the specification's terms.

  When a point's input blocks are the argument arrays read at rows `i r` (`BlockOf`), the point adds to column `d` of
  each accumulator the sum over its 512 rows of that accumulator's per-row quantity: the positive term, `z`, `z²`, the
  inverse doubled variance `s`, `mu · s` and `mu² · s`. At the first point of a half the previous contents are zero.
-/
import proofs.«139930_j47794396070568_2_alg».proof.Proof.Pieces
import proofs.«139930_j47794396070568_2_alg».proof.Proof.Blocks

set_option maxRecDepth 16384

noncomputable section

open Idealize.ShloMosaic Idealize.ShloMosaic.TcCoe Idealize.SL.Sem Idealize.ShloMosaic.ValueIdx

namespace Cert.KernelIdeal.Step

open Cert.KernelIdeal Cert.KernelIdeal.Gen Cert.KernelIdeal.PayAt Cert.KernelIdeal.Blocks Cert.ClubSpec

/-- The mean perceptron of the whole batch. -/
abbrev muOf (A0 : Mat 16384 1024) (A2 : Mat 1024 1024) (A3 : Row 1024) (A4 : Mat 1024 1024) (A5 : Row 1024) :
    Fin 16384 → Fin 1024 → EReal := ff A0 A2 A3 A4 A5
/-- The inverse doubled variance of the whole batch. -/
abbrev sgOf (A0 : Mat 16384 1024) (A6 : Mat 1024 1024) (A7 : Row 1024) (A8 : Mat 1024 1024) (A9 : Row 1024) :
    Fin 16384 → Fin 1024 → EReal := sigma (Ideal.ofBits .f32 0x3F000000#32) A0 A6 A7 A8 A9
/-- The second input by coordinates. -/
abbrev zOf (A1 : Mat 16384 1024) : Fin 16384 → Fin 1024 → EReal := fun i d => A1 (ix2 i d)

/-- The input blocks of a point are the argument arrays read at rows `i r` (the weights and biases whole). -/
structure BlockOf (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024) (i : Fin 512 → Fin 16384) : Prop where
  h0 : ∀ r j, x0 (ix2 r j) = A0 (ix2 (i r) j)
  h1 : ∀ r j, x1 (ix2 r j) = A1 (ix2 (i r) j)
  h2 : ∀ j k, x2 (ix2 j k) = A2 (ix2 j k)
  h3 : ∀ k, x3 (ix2 (0 : Fin 1) k) = A3 (ix1 k)
  h4 : ∀ j k, x4 (ix2 j k) = A4 (ix2 j k)
  h5 : ∀ k, x5 (ix2 (0 : Fin 1) k) = A5 (ix1 k)
  h6 : ∀ j k, x6 (ix2 j k) = A6 (ix2 j k)
  h7 : ∀ k, x7 (ix2 (0 : Fin 1) k) = A7 (ix1 k)
  h8 : ∀ j k, x8 (ix2 j k) = A8 (ix2 j k)
  h9 : ∀ k, x9 (ix2 (0 : Fin 1) k) = A9 (ix1 k)

section
variable (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024) (i : Fin 512 → Fin 16384)
  (hB : BlockOf x0 x1 x2 x3 x4 x5 x6 x7 x8 x9 A0 A1 A2 A3 A4 A5 A6 A7 A8 A9 i) (xo : Vec Ideal S1x1x1024 .f32) (d : Fin 1024)
include hB

theorem mu_at (r : Fin 512) : k0_pay9 (F := Ideal) x0 x2 x3 x4 x5 (ix2 r d) = muOf A0 A2 A3 A4 A5 (i r) d :=
  (pay9_apply x0 x2 x3 x4 x5 r d).trans (ffB_eq_ff x0 x2 x3 x4 x5 A0 A2 A3 A4 A5 i hB.h0 hB.h2 hB.h3 hB.h4 hB.h5 r d)

theorem sg_at (r : Fin 512) : k0_pay12 (F := Ideal) (k0_pay10 x0 x6 x7) (k0_pay11 x8) x9 (ix2 r d) = sgOf A0 A6 A7 A8 A9 (i r) d :=
  (pay12_apply x0 x6 x7 x8 x9 r d).trans (sgB_eq_sigma x0 x6 x7 x8 x9 A0 A6 A7 A8 A9 i hB.h0 hB.h6 hB.h7 hB.h8 hB.h9 r d)

theorem upd10 : k0_pay13 (F := Ideal) (k0_pay9 x0 x2 x3 x4 x5) (k0_pay10 x0 x6 x7) (k0_pay11 x8) x9 x1 xo (ix3 (0 : Fin 1) (0 : Fin 1) d)
    = xo (ix3 (0 : Fin 1) (0 : Fin 1) d) + ∑ r : Fin 512, (posT (muOf A0 A2 A3 A4 A5) (sgOf A0 A6 A7 A8 A9) (zOf A1)) (i r) d := by
  refine (pay13_apply (k0_pay9 x0 x2 x3 x4 x5) x1 xo d (k0_pay10 x0 x6 x7) (k0_pay11 x8) x9).trans ?_
  refine congrArg (xo (ix3 (0 : Fin 1) (0 : Fin 1) d) + ·) (Finset.sum_congr rfl fun r _ => ?_)
  rw [mu_at x0 x1 x2 x3 x4 x5 x6 x7 x8 x9 A0 A1 A2 A3 A4 A5 A6 A7 A8 A9 i hB d r, sg_at x0 x1 x2 x3 x4 x5 x6 x7 x8 x9 A0 A1 A2 A3 A4 A5 A6 A7 A8 A9 i hB d r, hB.h1]
  rfl

theorem upd11 : k0_pay14 (F := Ideal) x1 xo (ix3 (0 : Fin 1) (0 : Fin 1) d)
    = xo (ix3 (0 : Fin 1) (0 : Fin 1) d) + ∑ r : Fin 512, (zOf A1) (i r) d := by
  refine (pay14_apply x1 xo d).trans ?_
  refine congrArg (xo (ix3 (0 : Fin 1) (0 : Fin 1) d) + ·) (Finset.sum_congr rfl fun r _ => ?_)
  rw [hB.h1]

theorem upd12 : k0_pay15 (F := Ideal) x1 xo (ix3 (0 : Fin 1) (0 : Fin 1) d)
    = xo (ix3 (0 : Fin 1) (0 : Fin 1) d) + ∑ r : Fin 512, (fun i d => zOf A1 i d * zOf A1 i d) (i r) d := by
  refine (pay15_apply x1 xo d).trans ?_
  refine congrArg (xo (ix3 (0 : Fin 1) (0 : Fin 1) d) + ·) (Finset.sum_congr rfl fun r _ => ?_)
  rw [hB.h1]

theorem upd13 : k0_pay16 (F := Ideal) (k0_pay12 (k0_pay10 x0 x6 x7) (k0_pay11 x8) x9) xo (ix3 (0 : Fin 1) (0 : Fin 1) d)
    = xo (ix3 (0 : Fin 1) (0 : Fin 1) d) + ∑ r : Fin 512, (sgOf A0 A6 A7 A8 A9) (i r) d := by
  refine (pay16_apply (k0_pay12 (k0_pay10 x0 x6 x7) (k0_pay11 x8) x9) xo d).trans ?_
  refine congrArg (xo (ix3 (0 : Fin 1) (0 : Fin 1) d) + ·) (Finset.sum_congr rfl fun r _ => ?_)
  exact sg_at x0 x1 x2 x3 x4 x5 x6 x7 x8 x9 A0 A1 A2 A3 A4 A5 A6 A7 A8 A9 i hB d r

theorem upd14 : k0_pay17 (F := Ideal) (k0_pay9 x0 x2 x3 x4 x5) (k0_pay12 (k0_pay10 x0 x6 x7) (k0_pay11 x8) x9) xo (ix3 (0 : Fin 1) (0 : Fin 1) d)
    = xo (ix3 (0 : Fin 1) (0 : Fin 1) d) + ∑ r : Fin 512, (fun i d => muOf A0 A2 A3 A4 A5 i d * sgOf A0 A6 A7 A8 A9 i d) (i r) d := by
  refine (pay17_apply (k0_pay9 x0 x2 x3 x4 x5) (k0_pay12 (k0_pay10 x0 x6 x7) (k0_pay11 x8) x9) xo d).trans ?_
  refine congrArg (xo (ix3 (0 : Fin 1) (0 : Fin 1) d) + ·) (Finset.sum_congr rfl fun r _ => ?_)
  rw [mu_at x0 x1 x2 x3 x4 x5 x6 x7 x8 x9 A0 A1 A2 A3 A4 A5 A6 A7 A8 A9 i hB d r, sg_at x0 x1 x2 x3 x4 x5 x6 x7 x8 x9 A0 A1 A2 A3 A4 A5 A6 A7 A8 A9 i hB d r]

theorem upd15 : k0_pay1 (F := Ideal) (k0_pay18 (k0_pay9 x0 x2 x3 x4 x5) (k0_pay12 (k0_pay10 x0 x6 x7) (k0_pay11 x8) x9) xo) (ix3 (0 : Fin 1) (0 : Fin 1) d)
    = xo (ix3 (0 : Fin 1) (0 : Fin 1) d) + ∑ r : Fin 512, (fun i d => (muOf A0 A2 A3 A4 A5 i d * muOf A0 A2 A3 A4 A5 i d) * sgOf A0 A6 A7 A8 A9 i d) (i r) d := by
  refine (pay18_apply (k0_pay9 x0 x2 x3 x4 x5) (k0_pay12 (k0_pay10 x0 x6 x7) (k0_pay11 x8) x9) xo d).trans ?_
  refine congrArg (xo (ix3 (0 : Fin 1) (0 : Fin 1) d) + ·) (Finset.sum_congr rfl fun r _ => ?_)
  rw [mu_at x0 x1 x2 x3 x4 x5 x6 x7 x8 x9 A0 A1 A2 A3 A4 A5 A6 A7 A8 A9 i hB d r, sg_at x0 x1 x2 x3 x4 x5 x6 x7 x8 x9 A0 A1 A2 A3 A4 A5 A6 A7 A8 A9 i hB d r]

end

/-- Accumulator 0 after a later point of a half. -/
theorem stepB_10 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (xo10 : Vec Ideal S1x1x1024 .f32) (xo11 : Vec Ideal S1x1x1024 .f32) (xo12 : Vec Ideal S1x1x1024 .f32) (xo13 : Vec Ideal S1x1x1024 .f32) (xo14 : Vec Ideal S1x1x1024 .f32) (xo15 : Vec Ideal S1x1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_B_10 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15 (ix3 (0 : Fin 1) (0 : Fin 1) d)
      = xo10 (ix3 (0 : Fin 1) (0 : Fin 1) d) + ∑ r : Fin 512, (posT (muOf A0 A2 A3 A4 A5) (sgOf A0 A6 A7 A8 A9) (zOf A1)) (i r) d := by
  rw [Pieces.out_B_10]
  exact upd10 x0 x1 x2 x3 x4 x5 x6 x7 x8 x9 A0 A1 A2 A3 A4 A5 A6 A7 A8 A9 i hB xo10 d

/-- Accumulator 0 after the first point of a half. -/
theorem stepA_10 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_A_10 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 (0 : Fin 1) (0 : Fin 1) d)
      = ∑ r : Fin 512, (posT (muOf A0 A2 A3 A4 A5) (sgOf A0 A6 A7 A8 A9) (zOf A1)) (i r) d := by
  rw [Pieces.out_A_10]
  refine (upd10 x0 x1 x2 x3 x4 x5 x6 x7 x8 x9 A0 A1 A2 A3 A4 A5 A6 A7 A8 A9 i hB (k0_pay2 (F := Ideal)) d).trans ?_
  rw [pay2_apply, zero_add]

/-- Accumulator 1 after a later point of a half. -/
theorem stepB_11 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (xo10 : Vec Ideal S1x1x1024 .f32) (xo11 : Vec Ideal S1x1x1024 .f32) (xo12 : Vec Ideal S1x1x1024 .f32) (xo13 : Vec Ideal S1x1x1024 .f32) (xo14 : Vec Ideal S1x1x1024 .f32) (xo15 : Vec Ideal S1x1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_B_11 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15 (ix3 (0 : Fin 1) (0 : Fin 1) d)
      = xo11 (ix3 (0 : Fin 1) (0 : Fin 1) d) + ∑ r : Fin 512, (zOf A1) (i r) d := by
  rw [Pieces.out_B_11]
  exact upd11 x0 x1 x2 x3 x4 x5 x6 x7 x8 x9 A0 A1 A2 A3 A4 A5 A6 A7 A8 A9 i hB xo11 d

/-- Accumulator 1 after the first point of a half. -/
theorem stepA_11 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_A_11 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 (0 : Fin 1) (0 : Fin 1) d)
      = ∑ r : Fin 512, (zOf A1) (i r) d := by
  rw [Pieces.out_A_11]
  refine (upd11 x0 x1 x2 x3 x4 x5 x6 x7 x8 x9 A0 A1 A2 A3 A4 A5 A6 A7 A8 A9 i hB (k0_pay3 (F := Ideal)) d).trans ?_
  rw [pay3_apply, zero_add]

/-- Accumulator 2 after a later point of a half. -/
theorem stepB_12 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (xo10 : Vec Ideal S1x1x1024 .f32) (xo11 : Vec Ideal S1x1x1024 .f32) (xo12 : Vec Ideal S1x1x1024 .f32) (xo13 : Vec Ideal S1x1x1024 .f32) (xo14 : Vec Ideal S1x1x1024 .f32) (xo15 : Vec Ideal S1x1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_B_12 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15 (ix3 (0 : Fin 1) (0 : Fin 1) d)
      = xo12 (ix3 (0 : Fin 1) (0 : Fin 1) d) + ∑ r : Fin 512, (fun i d => zOf A1 i d * zOf A1 i d) (i r) d := by
  rw [Pieces.out_B_12]
  exact upd12 x0 x1 x2 x3 x4 x5 x6 x7 x8 x9 A0 A1 A2 A3 A4 A5 A6 A7 A8 A9 i hB xo12 d

/-- Accumulator 2 after the first point of a half. -/
theorem stepA_12 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_A_12 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 (0 : Fin 1) (0 : Fin 1) d)
      = ∑ r : Fin 512, (fun i d => zOf A1 i d * zOf A1 i d) (i r) d := by
  rw [Pieces.out_A_12]
  refine (upd12 x0 x1 x2 x3 x4 x5 x6 x7 x8 x9 A0 A1 A2 A3 A4 A5 A6 A7 A8 A9 i hB (k0_pay4 (F := Ideal)) d).trans ?_
  rw [pay4_apply, zero_add]

/-- Accumulator 3 after a later point of a half. -/
theorem stepB_13 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (xo10 : Vec Ideal S1x1x1024 .f32) (xo11 : Vec Ideal S1x1x1024 .f32) (xo12 : Vec Ideal S1x1x1024 .f32) (xo13 : Vec Ideal S1x1x1024 .f32) (xo14 : Vec Ideal S1x1x1024 .f32) (xo15 : Vec Ideal S1x1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_B_13 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15 (ix3 (0 : Fin 1) (0 : Fin 1) d)
      = xo13 (ix3 (0 : Fin 1) (0 : Fin 1) d) + ∑ r : Fin 512, (sgOf A0 A6 A7 A8 A9) (i r) d := by
  rw [Pieces.out_B_13]
  exact upd13 x0 x1 x2 x3 x4 x5 x6 x7 x8 x9 A0 A1 A2 A3 A4 A5 A6 A7 A8 A9 i hB xo13 d

/-- Accumulator 3 after the first point of a half. -/
theorem stepA_13 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_A_13 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 (0 : Fin 1) (0 : Fin 1) d)
      = ∑ r : Fin 512, (sgOf A0 A6 A7 A8 A9) (i r) d := by
  rw [Pieces.out_A_13]
  refine (upd13 x0 x1 x2 x3 x4 x5 x6 x7 x8 x9 A0 A1 A2 A3 A4 A5 A6 A7 A8 A9 i hB (k0_pay5 (F := Ideal)) d).trans ?_
  rw [pay5_apply, zero_add]

/-- Accumulator 4 after a later point of a half. -/
theorem stepB_14 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (xo10 : Vec Ideal S1x1x1024 .f32) (xo11 : Vec Ideal S1x1x1024 .f32) (xo12 : Vec Ideal S1x1x1024 .f32) (xo13 : Vec Ideal S1x1x1024 .f32) (xo14 : Vec Ideal S1x1x1024 .f32) (xo15 : Vec Ideal S1x1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_B_14 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15 (ix3 (0 : Fin 1) (0 : Fin 1) d)
      = xo14 (ix3 (0 : Fin 1) (0 : Fin 1) d) + ∑ r : Fin 512, (fun i d => muOf A0 A2 A3 A4 A5 i d * sgOf A0 A6 A7 A8 A9 i d) (i r) d := by
  rw [Pieces.out_B_14]
  exact upd14 x0 x1 x2 x3 x4 x5 x6 x7 x8 x9 A0 A1 A2 A3 A4 A5 A6 A7 A8 A9 i hB xo14 d

/-- Accumulator 4 after the first point of a half. -/
theorem stepA_14 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_A_14 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 (0 : Fin 1) (0 : Fin 1) d)
      = ∑ r : Fin 512, (fun i d => muOf A0 A2 A3 A4 A5 i d * sgOf A0 A6 A7 A8 A9 i d) (i r) d := by
  rw [Pieces.out_A_14]
  refine (upd14 x0 x1 x2 x3 x4 x5 x6 x7 x8 x9 A0 A1 A2 A3 A4 A5 A6 A7 A8 A9 i hB (k0_pay6 (F := Ideal)) d).trans ?_
  rw [pay6_apply, zero_add]

/-- Accumulator 5 after a later point of a half. -/
theorem stepB_15 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : ¬cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (xo10 : Vec Ideal S1x1x1024 .f32) (xo11 : Vec Ideal S1x1x1024 .f32) (xo12 : Vec Ideal S1x1x1024 .f32) (xo13 : Vec Ideal S1x1x1024 .f32) (xo14 : Vec Ideal S1x1x1024 .f32) (xo15 : Vec Ideal S1x1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_B_15 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xo11 xo12 xo13 xo14 xo15 (ix3 (0 : Fin 1) (0 : Fin 1) d)
      = xo15 (ix3 (0 : Fin 1) (0 : Fin 1) d) + ∑ r : Fin 512, (fun i d => (muOf A0 A2 A3 A4 A5 i d * muOf A0 A2 A3 A4 A5 i d) * sgOf A0 A6 A7 A8 A9 i d) (i r) d := by
  rw [Pieces.out_B_15]
  exact upd15 x0 x1 x2 x3 x4 x5 x6 x7 x8 x9 A0 A1 A2 A3 A4 A5 A6 A7 A8 A9 i hB xo15 d

/-- Accumulator 5 after the first point of a half. -/
theorem stepA_15 (c : Dev nD) (g : grid0.Coords) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (hc0 : cond0_0 g) (x0 x1 : Vec Ideal S512x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32) (x8 : Vec Ideal S1024x1024 .bf16) (x9 : Vec Ideal S1x1024 .f32) (A0 A1 : Mat 16384 1024) (A2 : Mat 1024 1024) (A3 : Row 1024) (A4 : Mat 1024 1024) (A5 : Row 1024) (A6 : Mat 1024 1024) (A7 : Row 1024) (A8 : Mat 1024 1024) (A9 : Row 1024)
    (i : Fin 512 → Fin 16384) (hB : BlockOf x0 x1 x2 x3 x4 x5 x6 x7 x8 x9 A0 A1 A2 A3 A4 A5 A6 A7 A8 A9 i) (d : Fin 1024) :
    out0_A_15 (F := Ideal) c g arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix3 (0 : Fin 1) (0 : Fin 1) d)
      = ∑ r : Fin 512, (fun i d => (muOf A0 A2 A3 A4 A5 i d * muOf A0 A2 A3 A4 A5 i d) * sgOf A0 A6 A7 A8 A9 i d) (i r) d := by
  rw [Pieces.out_A_15]
  refine (upd15 x0 x1 x2 x3 x4 x5 x6 x7 x8 x9 A0 A1 A2 A3 A4 A5 A6 A7 A8 A9 i hB (k0_pay7 (F := Ideal)) d).trans ?_
  rw [pay7_apply, zero_add]

end Cert.KernelIdeal.Step
end
-- ==== Proof.Chain.lean ====
/-
  The six accumulators over the grid.

  The grid's 32 points run through the two halves of the batch, 16 blocks of 512 rows each. An accumulator restarts
  from zero at the first point of a half and then grows by one block's column sum per point, so after point `16 p + k`
  it holds the sum over blocks `0 … k` of half `p`; after the last point of the half it holds the half's whole
  column sum, block by block.
-/
import proofs.«139930_j47794396070568_2_alg».proof.Proof.Step

set_option maxRecDepth 16384

noncomputable section

open Idealize.ShloMosaic Idealize.ShloMosaic.TcCoe Idealize.SL.Sem Idealize.ShloMosaic.ValueIdx

namespace Cert.KernelIdeal.Chain

open Cert.KernelIdeal Cert.KernelIdeal.Gen Cert.KernelIdeal.Blocks Cert.KernelIdeal.Step Cert.ClubSpec

variable (m : (ℓ : Loc nD τ sig) → Buf (Elt Ideal) ℓ)

/-- Argument 0 as the run finds it. -/
abbrev a0 (c : Dev nD) : Mat 16384 1024 := m ((c : Thread nD τ).loc main_arg0)
/-- Argument 1 as the run finds it. -/
abbrev a1 (c : Dev nD) : Mat 16384 1024 := m ((c : Thread nD τ).loc main_arg1)
/-- Argument 2 as the run finds it. -/
abbrev a2 (c : Dev nD) : Mat 1024 1024 := m ((c : Thread nD τ).loc main_arg2)
/-- Argument 3 as the run finds it. -/
abbrev a3 (c : Dev nD) : Row 1024 := m ((c : Thread nD τ).loc main_arg3)
/-- Argument 4 as the run finds it. -/
abbrev a4 (c : Dev nD) : Mat 1024 1024 := m ((c : Thread nD τ).loc main_arg4)
/-- Argument 5 as the run finds it. -/
abbrev a5 (c : Dev nD) : Row 1024 := m ((c : Thread nD τ).loc main_arg5)
/-- Argument 6 as the run finds it. -/
abbrev a6 (c : Dev nD) : Mat 1024 1024 := m ((c : Thread nD τ).loc main_arg6)
/-- Argument 7 as the run finds it. -/
abbrev a7 (c : Dev nD) : Row 1024 := m ((c : Thread nD τ).loc main_arg7)
/-- Argument 8 as the run finds it. -/
abbrev a8 (c : Dev nD) : Mat 1024 1024 := m ((c : Thread nD τ).loc main_arg8)
/-- Argument 9 as the run finds it. -/
abbrev a9 (c : Dev nD) : Row 1024 := m ((c : Thread nD τ).loc main_arg9)

/-- The input blocks of point `t` are the argument arrays read at rows `512 t + r`. -/
theorem blockOf_iblk (c : Dev nD) (t : Fin cfg0.N) :
    BlockOf (iblk m c 0 t) (iblk m c 1 t) (iblk m c 2 t) (iblk m c 3 t) (iblk m c 4 t) (iblk m c 5 t) (iblk m c 6 t) (iblk m c 7 t) (iblk m c 8 t) (iblk m c 9 t) (a0 m c) (a1 m c) (a2 m c) (a3 m c) (a4 m c) (a5 m c) (a6 m c) (a7 m c) (a8 m c) (a9 m c) (rowOf t) :=
  ⟨iblk0_apply m c t, iblk1_apply m c t, iblk2_apply m c t, iblk3_apply m c t, iblk4_apply m c t, iblk5_apply m c t,
    iblk6_apply m c t, iblk7_apply m c t, iblk8_apply m c t, iblk9_apply m c t⟩

/-- The per-row quantity accumulator 0 sums. -/
abbrev q10 (c : Dev nD) : Fin 16384 → Fin 1024 → EReal := posT (muOf (a0 m c) (a2 m c) (a3 m c) (a4 m c) (a5 m c)) (sgOf (a0 m c) (a6 m c) (a7 m c) (a8 m c) (a9 m c)) (zOf (a1 m c))
/-- The per-row quantity accumulator 1 sums. -/
abbrev q11 (c : Dev nD) : Fin 16384 → Fin 1024 → EReal := zOf (a1 m c)
/-- The per-row quantity accumulator 2 sums. -/
abbrev q12 (c : Dev nD) : Fin 16384 → Fin 1024 → EReal := fun i d => zOf (a1 m c) i d * zOf (a1 m c) i d
/-- The per-row quantity accumulator 3 sums. -/
abbrev q13 (c : Dev nD) : Fin 16384 → Fin 1024 → EReal := sgOf (a0 m c) (a6 m c) (a7 m c) (a8 m c) (a9 m c)
/-- The per-row quantity accumulator 4 sums. -/
abbrev q14 (c : Dev nD) : Fin 16384 → Fin 1024 → EReal := fun i d => muOf (a0 m c) (a2 m c) (a3 m c) (a4 m c) (a5 m c) i d * sgOf (a0 m c) (a6 m c) (a7 m c) (a8 m c) (a9 m c) i d
/-- The per-row quantity accumulator 5 sums. -/
abbrev q15 (c : Dev nD) : Fin 16384 → Fin 1024 → EReal := fun i d => (muOf (a0 m c) (a2 m c) (a3 m c) (a4 m c) (a5 m c) i d * muOf (a0 m c) (a2 m c) (a3 m c) (a4 m c) (a5 m c) i d) * sgOf (a0 m c) (a6 m c) (a7 m c) (a8 m c) (a9 m c) i d

/-- The column sum of `X` over the 512 rows of point `t`. -/
def blockSum (X : Fin 16384 → Fin 1024 → EReal) (t : Fin cfg0.N) (d : Fin 1024) : EReal := ∑ r : Fin 512, X (rowOf t r) d

/-- The running sum: restarted at the first point of each half, one block's column sum added per point. -/
def run (X : Fin 16384 → Fin 1024 → EReal) : (n : ℕ) → n < cfg0.N → Fin 1024 → EReal
  | 0, h, d => blockSum X ⟨0, h⟩ d
  | n + 1, h, d => if (n + 1) % 16 = 0 then blockSum X ⟨n + 1, h⟩ d
      else run X n (Nat.lt_of_succ_lt h) d + blockSum X ⟨n + 1, h⟩ d

theorem run_reset (X : Fin 16384 → Fin 1024 → EReal) (n : ℕ) (h : n + 1 < cfg0.N) (d : Fin 1024) (h0 : (n + 1) % 16 = 0) :
    run X (n + 1) h d = blockSum X ⟨n + 1, h⟩ d := by
  rw [run]; exact if_pos h0

theorem run_step (X : Fin 16384 → Fin 1024 → EReal) (n : ℕ) (h : n + 1 < cfg0.N) (d : Fin 1024) (h0 : ¬(n + 1) % 16 = 0) :
    run X (n + 1) h d = run X n (Nat.lt_of_succ_lt h) d + blockSum X ⟨n + 1, h⟩ d := by
  rw [run]; exact if_neg h0

theorem run_of_mod (X : Fin 16384 → Fin 1024 → EReal) (n : ℕ) (h : n < cfg0.N) (d : Fin 1024) (h0 : n % 16 = 0) :
    run X n h d = blockSum X ⟨n, h⟩ d := by
  cases n with
  | zero => rfl
  | succ n => exact run_reset X n h d h0

/-- After every point each accumulator holds its running sum. -/
theorem inv (c : Dev nD) : ∀ (n : ℕ) (h : n < cfg0.N) (d : Fin 1024),
    (outsAt0 m c n h).1 (ix3 (0 : Fin 1) (0 : Fin 1) d) = run (q10 m c) n h d
    ∧ (outsAt0 m c n h).2.1 (ix3 (0 : Fin 1) (0 : Fin 1) d) = run (q11 m c) n h d
    ∧ (outsAt0 m c n h).2.2.1 (ix3 (0 : Fin 1) (0 : Fin 1) d) = run (q12 m c) n h d
    ∧ (outsAt0 m c n h).2.2.2.1 (ix3 (0 : Fin 1) (0 : Fin 1) d) = run (q13 m c) n h d
    ∧ (outsAt0 m c n h).2.2.2.2.1 (ix3 (0 : Fin 1) (0 : Fin 1) d) = run (q14 m c) n h d
    ∧ (outsAt0 m c n h).2.2.2.2.2 (ix3 (0 : Fin 1) (0 : Fin 1) d) = run (q15 m c) n h d
  | 0, h, d => by
    rw [show outsAt0 m c 0 h = _ from outsAt0_A m c ⟨0, h⟩ rfl]
    dsimp only
    exact ⟨stepA_10 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (a0 m c) (a1 m c) (a2 m c) (a3 m c) (a4 m c) (a5 m c) (a6 m c) (a7 m c) (a8 m c) (a9 m c) (rowOf ⟨0, h⟩) (blockOf_iblk m c ⟨0, h⟩) d,
      stepA_11 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (a0 m c) (a1 m c) (a2 m c) (a3 m c) (a4 m c) (a5 m c) (a6 m c) (a7 m c) (a8 m c) (a9 m c) (rowOf ⟨0, h⟩) (blockOf_iblk m c ⟨0, h⟩) d,
      stepA_12 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (a0 m c) (a1 m c) (a2 m c) (a3 m c) (a4 m c) (a5 m c) (a6 m c) (a7 m c) (a8 m c) (a9 m c) (rowOf ⟨0, h⟩) (blockOf_iblk m c ⟨0, h⟩) d,
      stepA_13 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (a0 m c) (a1 m c) (a2 m c) (a3 m c) (a4 m c) (a5 m c) (a6 m c) (a7 m c) (a8 m c) (a9 m c) (rowOf ⟨0, h⟩) (blockOf_iblk m c ⟨0, h⟩) d,
      stepA_14 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (a0 m c) (a1 m c) (a2 m c) (a3 m c) (a4 m c) (a5 m c) (a6 m c) (a7 m c) (a8 m c) (a9 m c) (rowOf ⟨0, h⟩) (blockOf_iblk m c ⟨0, h⟩) d,
      stepA_15 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (a0 m c) (a1 m c) (a2 m c) (a3 m c) (a4 m c) (a5 m c) (a6 m c) (a7 m c) (a8 m c) (a9 m c) (rowOf ⟨0, h⟩) (blockOf_iblk m c ⟨0, h⟩) d⟩
  | n + 1, h, d => by
    have ih := inv c n (Nat.lt_of_succ_lt h) d
    by_cases h0 : (n + 1) % 16 = 0
    · rw [show outsAt0 m c (n + 1) h = _ from outsAt0_A m c ⟨n + 1, h⟩ h0]
      dsimp only
      rw [run_reset _ n h d h0, run_reset _ n h d h0, run_reset _ n h d h0, run_reset _ n h d h0, run_reset _ n h d h0, run_reset _ n h d h0]
      exact ⟨stepA_10 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (a0 m c) (a1 m c) (a2 m c) (a3 m c) (a4 m c) (a5 m c) (a6 m c) (a7 m c) (a8 m c) (a9 m c) (rowOf ⟨n + 1, h⟩) (blockOf_iblk m c ⟨n + 1, h⟩) d,
        stepA_11 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (a0 m c) (a1 m c) (a2 m c) (a3 m c) (a4 m c) (a5 m c) (a6 m c) (a7 m c) (a8 m c) (a9 m c) (rowOf ⟨n + 1, h⟩) (blockOf_iblk m c ⟨n + 1, h⟩) d,
        stepA_12 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (a0 m c) (a1 m c) (a2 m c) (a3 m c) (a4 m c) (a5 m c) (a6 m c) (a7 m c) (a8 m c) (a9 m c) (rowOf ⟨n + 1, h⟩) (blockOf_iblk m c ⟨n + 1, h⟩) d,
        stepA_13 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (a0 m c) (a1 m c) (a2 m c) (a3 m c) (a4 m c) (a5 m c) (a6 m c) (a7 m c) (a8 m c) (a9 m c) (rowOf ⟨n + 1, h⟩) (blockOf_iblk m c ⟨n + 1, h⟩) d,
        stepA_14 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (a0 m c) (a1 m c) (a2 m c) (a3 m c) (a4 m c) (a5 m c) (a6 m c) (a7 m c) (a8 m c) (a9 m c) (rowOf ⟨n + 1, h⟩) (blockOf_iblk m c ⟨n + 1, h⟩) d,
        stepA_15 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (a0 m c) (a1 m c) (a2 m c) (a3 m c) (a4 m c) (a5 m c) (a6 m c) (a7 m c) (a8 m c) (a9 m c) (rowOf ⟨n + 1, h⟩) (blockOf_iblk m c ⟨n + 1, h⟩) d⟩
    · rw [show outsAt0 m c (n + 1) h = _ from outsAt0_B m c ⟨n + 1, h⟩ h0]
      dsimp only
      rw [run_step _ n h d h0, run_step _ n h d h0, run_step _ n h d h0, run_step _ n h d h0, run_step _ n h d h0, run_step _ n h d h0]
      exact ⟨(stepB_10 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _ _ _ _ (a0 m c) (a1 m c) (a2 m c) (a3 m c) (a4 m c) (a5 m c) (a6 m c) (a7 m c) (a8 m c) (a9 m c) (rowOf ⟨n + 1, h⟩) (blockOf_iblk m c ⟨n + 1, h⟩) d).trans (congrArg (· + blockSum (q10 m c) ⟨n + 1, h⟩ d) ih.1),
        (stepB_11 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _ _ _ _ (a0 m c) (a1 m c) (a2 m c) (a3 m c) (a4 m c) (a5 m c) (a6 m c) (a7 m c) (a8 m c) (a9 m c) (rowOf ⟨n + 1, h⟩) (blockOf_iblk m c ⟨n + 1, h⟩) d).trans (congrArg (· + blockSum (q11 m c) ⟨n + 1, h⟩ d) ih.2.1),
        (stepB_12 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _ _ _ _ (a0 m c) (a1 m c) (a2 m c) (a3 m c) (a4 m c) (a5 m c) (a6 m c) (a7 m c) (a8 m c) (a9 m c) (rowOf ⟨n + 1, h⟩) (blockOf_iblk m c ⟨n + 1, h⟩) d).trans (congrArg (· + blockSum (q12 m c) ⟨n + 1, h⟩ d) ih.2.2.1),
        (stepB_13 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _ _ _ _ (a0 m c) (a1 m c) (a2 m c) (a3 m c) (a4 m c) (a5 m c) (a6 m c) (a7 m c) (a8 m c) (a9 m c) (rowOf ⟨n + 1, h⟩) (blockOf_iblk m c ⟨n + 1, h⟩) d).trans (congrArg (· + blockSum (q13 m c) ⟨n + 1, h⟩ d) ih.2.2.2.1),
        (stepB_14 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _ _ _ _ (a0 m c) (a1 m c) (a2 m c) (a3 m c) (a4 m c) (a5 m c) (a6 m c) (a7 m c) (a8 m c) (a9 m c) (rowOf ⟨n + 1, h⟩) (blockOf_iblk m c ⟨n + 1, h⟩) d).trans (congrArg (· + blockSum (q14 m c) ⟨n + 1, h⟩ d) ih.2.2.2.2.1),
        (stepB_15 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _ _ _ _ (a0 m c) (a1 m c) (a2 m c) (a3 m c) (a4 m c) (a5 m c) (a6 m c) (a7 m c) (a8 m c) (a9 m c) (rowOf ⟨n + 1, h⟩) (blockOf_iblk m c ⟨n + 1, h⟩) d).trans (congrArg (· + blockSum (q15 m c) ⟨n + 1, h⟩ d) ih.2.2.2.2.2)⟩

/-- The partial sums inside a half: after point `16 p + k` the running sum is the sum of blocks `0 … k` of half `p`. -/
theorem run_partial (X : Fin 16384 → Fin 1024 → EReal) (p : Fin 2) (d : Fin 1024) :
    ∀ (k : ℕ) (hk : k < 16) (h : 16 * p.val + k < cfg0.N),
      run X (16 * p.val + k) h d
        = ∑ j ∈ Finset.range (k + 1), (if hj : 16 * p.val + j < cfg0.N then blockSum X ⟨16 * p.val + j, hj⟩ d else 0)
  | 0, hk, h => by
    rw [Finset.sum_range_one, dif_pos h]
    exact run_of_mod X (16 * p.val + 0) h d (by omega)
  | k + 1, hk, h => by
    have hN : cfg0.N = 32 := N_0
    show run X ((16 * p.val + k) + 1) h d = _
    rw [run_step X (16 * p.val + k) h d (by omega), run_partial X p d k (by omega) (Nat.lt_of_succ_lt h),
      Finset.sum_range_succ _ (k + 1), dif_pos (show 16 * p.val + (k + 1) < cfg0.N from h)]
    rfl

/-- Row `r` of point `16 p + j` is row `r` of block `j` of half `p`. -/
theorem rowOf_eq_row (p : Fin 2) (j : Fin 16) (h : 16 * p.val + j.val < cfg0.N) (r : Fin 512) :
    rowOf ⟨16 * p.val + j.val, h⟩ r = row p j r := by
  apply Fin.ext
  show (16 * p.val + j.val) * 512 + r.val = p.val * 8192 + j.val * 512 + r.val
  omega

/-- After the last point of half `p` the running sum is the half's column sum, block by block. -/
theorem run_last (X : Fin 16384 → Fin 1024 → EReal) (p : Fin 2) (h : 16 * p.val + 15 < cfg0.N) (d : Fin 1024) :
    run X (16 * p.val + 15) h d = acc X p d := by
  have hN : cfg0.N = 32 := N_0
  rw [run_partial X p d 15 (by omega) h, Finset.sum_range]
  unfold acc
  refine Finset.sum_congr rfl fun j _ => ?_
  have hj : 16 * p.val + j.val < cfg0.N := by have := j.isLt; have := p.isLt; omega
  rw [dif_pos hj]
  unfold blockSum
  exact Finset.sum_congr rfl fun r _ => by rw [rowOf_eq_row p j hj r]

/-- So after the last point of half `p` the six accumulators hold the half's column sums. -/
theorem last (c : Dev nD) (p : Fin 2) (hp : 16 * p.val + 15 < cfg0.N) (d : Fin 1024) :
    (outsAt0 m c (16 * p.val + 15) hp).1 (ix3 (0 : Fin 1) (0 : Fin 1) d) = acc (q10 m c) p d
    ∧ (outsAt0 m c (16 * p.val + 15) hp).2.1 (ix3 (0 : Fin 1) (0 : Fin 1) d) = acc (q11 m c) p d
    ∧ (outsAt0 m c (16 * p.val + 15) hp).2.2.1 (ix3 (0 : Fin 1) (0 : Fin 1) d) = acc (q12 m c) p d
    ∧ (outsAt0 m c (16 * p.val + 15) hp).2.2.2.1 (ix3 (0 : Fin 1) (0 : Fin 1) d) = acc (q13 m c) p d
    ∧ (outsAt0 m c (16 * p.val + 15) hp).2.2.2.2.1 (ix3 (0 : Fin 1) (0 : Fin 1) d) = acc (q14 m c) p d
    ∧ (outsAt0 m c (16 * p.val + 15) hp).2.2.2.2.2 (ix3 (0 : Fin 1) (0 : Fin 1) d) = acc (q15 m c) p d := by
  have hi := inv m c (16 * p.val + 15) hp d
  exact ⟨hi.1.trans (run_last _ p hp d), hi.2.1.trans (run_last _ p hp d), hi.2.2.1.trans (run_last _ p hp d),
    hi.2.2.2.1.trans (run_last _ p hp d), hi.2.2.2.2.1.trans (run_last _ p hp d), hi.2.2.2.2.2.trans (run_last _ p hp d)⟩

end Cert.KernelIdeal.Chain
end
-- ==== Proof.Arrays.lean ====
/-
  From blocks to arrays: the six accumulator arrays after the run.

  Each accumulator array has one block of 1024 columns per half of the batch; the block of half `p` is written back
  once, at the last grid point `16 p + 15` of that half, and the two blocks cover the array. So the array after the
  run holds, at `(p, 0, d)`, what the staging buffer holds at column `d` after the body at point `16 p + 15`.
-/
import proofs.«139930_j47794396070568_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- A function of the half and the column, as a function of the array's index `(p, 0, d)`. -/
def full (G : Fin 2 → Fin 1024 → EReal) : S2x1x1024.Idx → EReal := fun i => G (i 0) (i 2)

/-- What the staging buffers hold at a position does not depend on how the position is written. -/
theorem outs_congr (c : Dev nD) (n n' : ℕ) (e : n = n') (hn : n < cfg0.N) (hn' : n' < cfg0.N) :
    outsAt0 m c n hn = outsAt0 m c n' hn' := by
  subst e
  rfl

/-- An index of a block is `(0, 0, d)`. -/
theorem blk_idx (y : S1x1x1024.Idx) (d : Fin 1024) (hd : d.val = (y 2).val) :
    y = ix3 (0 : Fin 1) (0 : Fin 1) d := by
  have h0 : (y 0).val < 1 := (y 0).isLt
  have h1 : (y 1).val < 1 := (y 1).isLt
  funext a
  refine Fin.ext ?_
  match a with
  | ⟨0, _⟩ => show (y 0).val = 0; omega
  | ⟨1, _⟩ => show (y 1).val = 0; omega
  | ⟨2, _⟩ => exact hd.symm

/-- A block that holds `G p` at every column is the function read at any array index of half `p` and the same column. -/
theorem point_read (G : Fin 2 → Fin 1024 → EReal) (X : S1x1x1024.Idx → EReal) (p : Fin 2)
    (hX : ∀ d : Fin 1024, X (ix3 (0 : Fin 1) (0 : Fin 1) d) = G p d) (y : S1x1x1024.Idx) (k : S2x1x1024.Idx)
    (hk0 : (k 0).val = p.val) (hk2 : (k 2).val = (y 2).val) : X y = full G k := by
  have hy2 : (y 2).val < 1024 := (y 2).isLt
  have e0 : (k 0 : Fin 2) = p := Fin.ext hk0
  have e2 : (k 2 : Fin 1024) = ⟨(y 2).val, hy2⟩ := Fin.ext hk2
  rw [blk_idx y ⟨(y 2).val, hy2⟩ rfl, hX]
  show G p ⟨(y 2).val, hy2⟩ = G (k 0) (k 2)
  rw [e0, e2]
  rfl

/-- The printed index maps of the six windows, decided over the grid: the block of point `t` is `(t / 16, 0, 0)`. -/
theorem idx_facts : ∀ t : Fin cfg0.N,
    (win0_10.index t (0 : Fin 3) = t.val / 16 ∧ win0_10.index t (1 : Fin 3) = 0 ∧ win0_10.index t (2 : Fin 3) = 0)
    ∧ (win0_11.index t (0 : Fin 3) = t.val / 16 ∧ win0_11.index t (1 : Fin 3) = 0 ∧ win0_11.index t (2 : Fin 3) = 0)
    ∧ (win0_12.index t (0 : Fin 3) = t.val / 16 ∧ win0_12.index t (1 : Fin 3) = 0 ∧ win0_12.index t (2 : Fin 3) = 0)
    ∧ (win0_13.index t (0 : Fin 3) = t.val / 16 ∧ win0_13.index t (1 : Fin 3) = 0 ∧ win0_13.index t (2 : Fin 3) = 0)
    ∧ (win0_14.index t (0 : Fin 3) = t.val / 16 ∧ win0_14.index t (1 : Fin 3) = 0 ∧ win0_14.index t (2 : Fin 3) = 0)
    ∧ (win0_15.index t (0 : Fin 3) = t.val / 16 ∧ win0_15.index t (1 : Fin 3) = 0 ∧ win0_15.index t (2 : Fin 3) = 0) :=
  (by decide +kernel : ∀ t : Fin grid0.N, _)

/-! ### Window 10 -/

/-- What a flushing point writes back is its block of the function. -/
theorem flushed10_eq (c : Dev nD) (G : Fin 2 → Fin 1024 → EReal)
    (h : ∀ (p : Fin 2) (hp : 16 * p.val + 15 < cfg0.N) (d : Fin 1024),
      (outsAt0 m c (16 * p.val + 15) hp).1 (ix3 (0 : Fin 1) (0 : Fin 1) d) = G p d)
    (t : Fin cfg0.N) (hf : (cfg0.win 10).flush t = true) :
    (dats m 0 c).flushed 10 t = ((cfg0.win 10).blk t).view.read (Elt Ideal) (full G) := by
  show (cfg0.win 10).cut (grid0.coords t) ((dats m 0 c).after 10 t) = _
  rw [after0_10]
  have h15 : t.val % 16 = 15 := (flush0_10 t).mp hf
  obtain ⟨⟨e0, e1, e2⟩, -⟩ := idx_facts t
  have hN : cfg0.N = 32 := N_0
  have ht : t.val < 32 := hN ▸ t.isLt
  obtain ⟨p, hp⟩ : ∃ p : Fin 2, p.val = t.val / 16 := ⟨⟨t.val / 16, by omega⟩, rfl⟩
  have hX : ∀ d : Fin 1024, (outsAt0 m c t.val t.isLt).1 (ix3 (0 : Fin 1) (0 : Fin 1) d) = G p d := by
    intro d
    rw [outs_congr m c t.val (16 * p.val + 15) (by omega) t.isLt (by omega)]
    exact h p _ d
  funext y
  rw [View.read_apply]
  have hy0 : (y 0).val < 1 := (y 0).isLt
  show (outsAt0 m c t.val t.isLt).1 y = full G (((cfg0.win 10).blk t).view.emb y)
  exact point_read G _ p hX y _
    (by show win0_10.index t (0 : Fin 3) * 1 + 1 * (y 0).val = p.val; omega)
    (by show win0_10.index t (2 : Fin 3) * 1024 + 1 * (y 2).val = (y 2).val; omega)

/-- An index of the array is in point `t`'s block iff each coordinate is in the block's range on its axis. -/
theorem mem_blk10 (t : Fin cfg0.N) (i : S2x1x1024.Idx) :
    i ∈ ((cfg0.win 10).blk t).view.set ↔ ∀ a : Fin 3, win0_10.index t a * S1x1x1024.size a ≤ (i a).val
      ∧ (i a).val < win0_10.index t a * S1x1x1024.size a + S1x1x1024.size a := by
  show i ∈ ((View.whole main_v8_0).slice (win0_10.rect t)).set ↔ _
  rw [View.set_slice_whole, Rect.mem_set_unit]
  exact Iff.rfl

/-- Every index of the array is in the block of the last point of its half, which is written back. -/
theorem cover10 (i : S2x1x1024.Idx) :
    ∃ t : Fin cfg0.N, (cfg0.win 10).flush t = true ∧ i ∈ ((cfg0.win 10).blk t).view.set := by
  have hN : cfg0.N = 32 := N_0
  have hi0 : (i 0).val < 2 := (i 0).isLt
  have hi1 : (i 1).val < 1 := (i 1).isLt
  have hi2 : (i 2).val < 1024 := (i 2).isLt
  obtain ⟨t, ht⟩ : ∃ t : Fin cfg0.N, t.val = 16 * (i 0).val + 15 := ⟨⟨16 * (i 0).val + 15, by omega⟩, rfl⟩
  obtain ⟨⟨e0, e1, e2⟩, -⟩ := idx_facts t
  refine ⟨t, (flush0_10 t).mpr (by omega), ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1 ≤ (i 1).val ∧ (i 1).val < win0_10.index t (1 : Fin 3) * 1 + 1; omega
  | ⟨2, _⟩ => show win0_10.index t (2 : Fin 3) * 1024 ≤ (i 2).val ∧ (i 2).val < win0_10.index t (2 : Fin 3) * 1024 + 1024; omega

/-- The array of window 10 after the run, at `(p, 0, d)`. -/
theorem arr10 (c : Dev nD) (G : Fin 2 → Fin 1024 → EReal)
    (h : ∀ (p : Fin 2) (hp : 16 * p.val + 15 < cfg0.N) (d : Fin 1024),
      (outsAt0 m c (16 * p.val + 15) hp).1 (ix3 (0 : Fin 1) (0 : Fin 1) d) = G p d) :
    ∀ (p : Fin 2) (d : Fin 1024), (dats m 0 c).arrAt 10 cfg0.N (ix3 p (0 : Fin 1) d) = G p d := by
  intro p d
  rw [(dats m 0 c).arrAt_eq_of_cover 10 (full G) (flushed10_eq m c G h) cover10]
  rfl

/-! ### Window 11 -/

/-- What a flushing point writes back is its block of the function. -/
theorem flushed11_eq (c : Dev nD) (G : Fin 2 → Fin 1024 → EReal)
    (h : ∀ (p : Fin 2) (hp : 16 * p.val + 15 < cfg0.N) (d : Fin 1024),
      (outsAt0 m c (16 * p.val + 15) hp).2.1 (ix3 (0 : Fin 1) (0 : Fin 1) d) = G p d)
    (t : Fin cfg0.N) (hf : (cfg0.win 11).flush t = true) :
    (dats m 0 c).flushed 11 t = ((cfg0.win 11).blk t).view.read (Elt Ideal) (full G) := by
  show (cfg0.win 11).cut (grid0.coords t) ((dats m 0 c).after 11 t) = _
  rw [after0_11]
  have h15 : t.val % 16 = 15 := (flush0_11 t).mp hf
  obtain ⟨-, ⟨e0, e1, e2⟩, -⟩ := idx_facts t
  have hN : cfg0.N = 32 := N_0
  have ht : t.val < 32 := hN ▸ t.isLt
  obtain ⟨p, hp⟩ : ∃ p : Fin 2, p.val = t.val / 16 := ⟨⟨t.val / 16, by omega⟩, rfl⟩
  have hX : ∀ d : Fin 1024, (outsAt0 m c t.val t.isLt).2.1 (ix3 (0 : Fin 1) (0 : Fin 1) d) = G p d := by
    intro d
    rw [outs_congr m c t.val (16 * p.val + 15) (by omega) t.isLt (by omega)]
    exact h p _ d
  funext y
  rw [View.read_apply]
  have hy0 : (y 0).val < 1 := (y 0).isLt
  show (outsAt0 m c t.val t.isLt).2.1 y = full G (((cfg0.win 11).blk t).view.emb y)
  exact point_read G _ p hX y _
    (by show win0_11.index t (0 : Fin 3) * 1 + 1 * (y 0).val = p.val; omega)
    (by show win0_11.index t (2 : Fin 3) * 1024 + 1 * (y 2).val = (y 2).val; omega)

/-- An index of the array is in point `t`'s block iff each coordinate is in the block's range on its axis. -/
theorem mem_blk11 (t : Fin cfg0.N) (i : S2x1x1024.Idx) :
    i ∈ ((cfg0.win 11).blk t).view.set ↔ ∀ a : Fin 3, win0_11.index t a * S1x1x1024.size a ≤ (i a).val
      ∧ (i a).val < win0_11.index t a * S1x1x1024.size a + S1x1x1024.size a := by
  show i ∈ ((View.whole main_v8_1).slice (win0_11.rect t)).set ↔ _
  rw [View.set_slice_whole, Rect.mem_set_unit]
  exact Iff.rfl

/-- Every index of the array is in the block of the last point of its half, which is written back. -/
theorem cover11 (i : S2x1x1024.Idx) :
    ∃ t : Fin cfg0.N, (cfg0.win 11).flush t = true ∧ i ∈ ((cfg0.win 11).blk t).view.set := by
  have hN : cfg0.N = 32 := N_0
  have hi0 : (i 0).val < 2 := (i 0).isLt
  have hi1 : (i 1).val < 1 := (i 1).isLt
  have hi2 : (i 2).val < 1024 := (i 2).isLt
  obtain ⟨t, ht⟩ : ∃ t : Fin cfg0.N, t.val = 16 * (i 0).val + 15 := ⟨⟨16 * (i 0).val + 15, by omega⟩, rfl⟩
  obtain ⟨-, ⟨e0, e1, e2⟩, -⟩ := idx_facts t
  refine ⟨t, (flush0_11 t).mpr (by omega), ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 1 ≤ (i 1).val ∧ (i 1).val < win0_11.index t (1 : Fin 3) * 1 + 1; omega
  | ⟨2, _⟩ => show win0_11.index t (2 : Fin 3) * 1024 ≤ (i 2).val ∧ (i 2).val < win0_11.index t (2 : Fin 3) * 1024 + 1024; omega

/-- The array of window 11 after the run, at `(p, 0, d)`. -/
theorem arr11 (c : Dev nD) (G : Fin 2 → Fin 1024 → EReal)
    (h : ∀ (p : Fin 2) (hp : 16 * p.val + 15 < cfg0.N) (d : Fin 1024),
      (outsAt0 m c (16 * p.val + 15) hp).2.1 (ix3 (0 : Fin 1) (0 : Fin 1) d) = G p d) :
    ∀ (p : Fin 2) (d : Fin 1024), (dats m 0 c).arrAt 11 cfg0.N (ix3 p (0 : Fin 1) d) = G p d := by
  intro p d
  rw [(dats m 0 c).arrAt_eq_of_cover 11 (full G) (flushed11_eq m c G h) cover11]
  rfl

/-! ### Window 12 -/

/-- What a flushing point writes back is its block of the function. -/
theorem flushed12_eq (c : Dev nD) (G : Fin 2 → Fin 1024 → EReal)
    (h : ∀ (p : Fin 2) (hp : 16 * p.val + 15 < cfg0.N) (d : Fin 1024),
      (outsAt0 m c (16 * p.val + 15) hp).2.2.1 (ix3 (0 : Fin 1) (0 : Fin 1) d) = G p d)
    (t : Fin cfg0.N) (hf : (cfg0.win 12).flush t = true) :
    (dats m 0 c).flushed 12 t = ((cfg0.win 12).blk t).view.read (Elt Ideal) (full G) := by
  show (cfg0.win 12).cut (grid0.coords t) ((dats m 0 c).after 12 t) = _
  rw [after0_12]
  have h15 : t.val % 16 = 15 := (flush0_12 t).mp hf
  obtain ⟨-, -, ⟨e0, e1, e2⟩, -⟩ := idx_facts t
  have hN : cfg0.N = 32 := N_0
  have ht : t.val < 32 := hN ▸ t.isLt
  obtain ⟨p, hp⟩ : ∃ p : Fin 2, p.val = t.val / 16 := ⟨⟨t.val / 16, by omega⟩, rfl⟩
  have hX : ∀ d : Fin 1024, (outsAt0 m c t.val t.isLt).2.2.1 (ix3 (0 : Fin 1) (0 : Fin 1) d) = G p d := by
    intro d
    rw [outs_congr m c t.val (16 * p.val + 15) (by omega) t.isLt (by omega)]
    exact h p _ d
  funext y
  rw [View.read_apply]
  have hy0 : (y 0).val < 1 := (y 0).isLt
  show (outsAt0 m c t.val t.isLt).2.2.1 y = full G (((cfg0.win 12).blk t).view.emb y)
  exact point_read G _ p hX y _
    (by show win0_12.index t (0 : Fin 3) * 1 + 1 * (y 0).val = p.val; omega)
    (by show win0_12.index t (2 : Fin 3) * 1024 + 1 * (y 2).val = (y 2).val; omega)

/-- An index of the array is in point `t`'s block iff each coordinate is in the block's range on its axis. -/
theorem mem_blk12 (t : Fin cfg0.N) (i : S2x1x1024.Idx) :
    i ∈ ((cfg0.win 12).blk t).view.set ↔ ∀ a : Fin 3, win0_12.index t a * S1x1x1024.size a ≤ (i a).val
      ∧ (i a).val < win0_12.index t a * S1x1x1024.size a + S1x1x1024.size a := by
  show i ∈ ((View.whole main_v8_2).slice (win0_12.rect t)).set ↔ _
  rw [View.set_slice_whole, Rect.mem_set_unit]
  exact Iff.rfl

/-- Every index of the array is in the block of the last point of its half, which is written back. -/
theorem cover12 (i : S2x1x1024.Idx) :
    ∃ t : Fin cfg0.N, (cfg0.win 12).flush t = true ∧ i ∈ ((cfg0.win 12).blk t).view.set := by
  have hN : cfg0.N = 32 := N_0
  have hi0 : (i 0).val < 2 := (i 0).isLt
  have hi1 : (i 1).val < 1 := (i 1).isLt
  have hi2 : (i 2).val < 1024 := (i 2).isLt
  obtain ⟨t, ht⟩ : ∃ t : Fin cfg0.N, t.val = 16 * (i 0).val + 15 := ⟨⟨16 * (i 0).val + 15, by omega⟩, rfl⟩
  obtain ⟨-, -, ⟨e0, e1, e2⟩, -⟩ := idx_facts t
  refine ⟨t, (flush0_12 t).mpr (by omega), ?_⟩
  rw [mem_blk12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 1 ≤ (i 1).val ∧ (i 1).val < win0_12.index t (1 : Fin 3) * 1 + 1; omega
  | ⟨2, _⟩ => show win0_12.index t (2 : Fin 3) * 1024 ≤ (i 2).val ∧ (i 2).val < win0_12.index t (2 : Fin 3) * 1024 + 1024; omega

/-- The array of window 12 after the run, at `(p, 0, d)`. -/
theorem arr12 (c : Dev nD) (G : Fin 2 → Fin 1024 → EReal)
    (h : ∀ (p : Fin 2) (hp : 16 * p.val + 15 < cfg0.N) (d : Fin 1024),
      (outsAt0 m c (16 * p.val + 15) hp).2.2.1 (ix3 (0 : Fin 1) (0 : Fin 1) d) = G p d) :
    ∀ (p : Fin 2) (d : Fin 1024), (dats m 0 c).arrAt 12 cfg0.N (ix3 p (0 : Fin 1) d) = G p d := by
  intro p d
  rw [(dats m 0 c).arrAt_eq_of_cover 12 (full G) (flushed12_eq m c G h) cover12]
  rfl

/-! ### Window 13 -/

/-- What a flushing point writes back is its block of the function. -/
theorem flushed13_eq (c : Dev nD) (G : Fin 2 → Fin 1024 → EReal)
    (h : ∀ (p : Fin 2) (hp : 16 * p.val + 15 < cfg0.N) (d : Fin 1024),
      (outsAt0 m c (16 * p.val + 15) hp).2.2.2.1 (ix3 (0 : Fin 1) (0 : Fin 1) d) = G p d)
    (t : Fin cfg0.N) (hf : (cfg0.win 13).flush t = true) :
    (dats m 0 c).flushed 13 t = ((cfg0.win 13).blk t).view.read (Elt Ideal) (full G) := by
  show (cfg0.win 13).cut (grid0.coords t) ((dats m 0 c).after 13 t) = _
  rw [after0_13]
  have h15 : t.val % 16 = 15 := (flush0_13 t).mp hf
  obtain ⟨-, -, -, ⟨e0, e1, e2⟩, -⟩ := idx_facts t
  have hN : cfg0.N = 32 := N_0
  have ht : t.val < 32 := hN ▸ t.isLt
  obtain ⟨p, hp⟩ : ∃ p : Fin 2, p.val = t.val / 16 := ⟨⟨t.val / 16, by omega⟩, rfl⟩
  have hX : ∀ d : Fin 1024, (outsAt0 m c t.val t.isLt).2.2.2.1 (ix3 (0 : Fin 1) (0 : Fin 1) d) = G p d := by
    intro d
    rw [outs_congr m c t.val (16 * p.val + 15) (by omega) t.isLt (by omega)]
    exact h p _ d
  funext y
  rw [View.read_apply]
  have hy0 : (y 0).val < 1 := (y 0).isLt
  show (outsAt0 m c t.val t.isLt).2.2.2.1 y = full G (((cfg0.win 13).blk t).view.emb y)
  exact point_read G _ p hX y _
    (by show win0_13.index t (0 : Fin 3) * 1 + 1 * (y 0).val = p.val; omega)
    (by show win0_13.index t (2 : Fin 3) * 1024 + 1 * (y 2).val = (y 2).val; omega)

/-- An index of the array is in point `t`'s block iff each coordinate is in the block's range on its axis. -/
theorem mem_blk13 (t : Fin cfg0.N) (i : S2x1x1024.Idx) :
    i ∈ ((cfg0.win 13).blk t).view.set ↔ ∀ a : Fin 3, win0_13.index t a * S1x1x1024.size a ≤ (i a).val
      ∧ (i a).val < win0_13.index t a * S1x1x1024.size a + S1x1x1024.size a := by
  show i ∈ ((View.whole main_v8_3).slice (win0_13.rect t)).set ↔ _
  rw [View.set_slice_whole, Rect.mem_set_unit]
  exact Iff.rfl

/-- Every index of the array is in the block of the last point of its half, which is written back. -/
theorem cover13 (i : S2x1x1024.Idx) :
    ∃ t : Fin cfg0.N, (cfg0.win 13).flush t = true ∧ i ∈ ((cfg0.win 13).blk t).view.set := by
  have hN : cfg0.N = 32 := N_0
  have hi0 : (i 0).val < 2 := (i 0).isLt
  have hi1 : (i 1).val < 1 := (i 1).isLt
  have hi2 : (i 2).val < 1024 := (i 2).isLt
  obtain ⟨t, ht⟩ : ∃ t : Fin cfg0.N, t.val = 16 * (i 0).val + 15 := ⟨⟨16 * (i 0).val + 15, by omega⟩, rfl⟩
  obtain ⟨-, -, -, ⟨e0, e1, e2⟩, -⟩ := idx_facts t
  refine ⟨t, (flush0_13 t).mpr (by omega), ?_⟩
  rw [mem_blk13]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 1 ≤ (i 1).val ∧ (i 1).val < win0_13.index t (1 : Fin 3) * 1 + 1; omega
  | ⟨2, _⟩ => show win0_13.index t (2 : Fin 3) * 1024 ≤ (i 2).val ∧ (i 2).val < win0_13.index t (2 : Fin 3) * 1024 + 1024; omega

/-- The array of window 13 after the run, at `(p, 0, d)`. -/
theorem arr13 (c : Dev nD) (G : Fin 2 → Fin 1024 → EReal)
    (h : ∀ (p : Fin 2) (hp : 16 * p.val + 15 < cfg0.N) (d : Fin 1024),
      (outsAt0 m c (16 * p.val + 15) hp).2.2.2.1 (ix3 (0 : Fin 1) (0 : Fin 1) d) = G p d) :
    ∀ (p : Fin 2) (d : Fin 1024), (dats m 0 c).arrAt 13 cfg0.N (ix3 p (0 : Fin 1) d) = G p d := by
  intro p d
  rw [(dats m 0 c).arrAt_eq_of_cover 13 (full G) (flushed13_eq m c G h) cover13]
  rfl

/-! ### Window 14 -/

/-- What a flushing point writes back is its block of the function. -/
theorem flushed14_eq (c : Dev nD) (G : Fin 2 → Fin 1024 → EReal)
    (h : ∀ (p : Fin 2) (hp : 16 * p.val + 15 < cfg0.N) (d : Fin 1024),
      (outsAt0 m c (16 * p.val + 15) hp).2.2.2.2.1 (ix3 (0 : Fin 1) (0 : Fin 1) d) = G p d)
    (t : Fin cfg0.N) (hf : (cfg0.win 14).flush t = true) :
    (dats m 0 c).flushed 14 t = ((cfg0.win 14).blk t).view.read (Elt Ideal) (full G) := by
  show (cfg0.win 14).cut (grid0.coords t) ((dats m 0 c).after 14 t) = _
  rw [after0_14]
  have h15 : t.val % 16 = 15 := (flush0_14 t).mp hf
  obtain ⟨-, -, -, -, ⟨e0, e1, e2⟩, -⟩ := idx_facts t
  have hN : cfg0.N = 32 := N_0
  have ht : t.val < 32 := hN ▸ t.isLt
  obtain ⟨p, hp⟩ : ∃ p : Fin 2, p.val = t.val / 16 := ⟨⟨t.val / 16, by omega⟩, rfl⟩
  have hX : ∀ d : Fin 1024, (outsAt0 m c t.val t.isLt).2.2.2.2.1 (ix3 (0 : Fin 1) (0 : Fin 1) d) = G p d := by
    intro d
    rw [outs_congr m c t.val (16 * p.val + 15) (by omega) t.isLt (by omega)]
    exact h p _ d
  funext y
  rw [View.read_apply]
  have hy0 : (y 0).val < 1 := (y 0).isLt
  show (outsAt0 m c t.val t.isLt).2.2.2.2.1 y = full G (((cfg0.win 14).blk t).view.emb y)
  exact point_read G _ p hX y _
    (by show win0_14.index t (0 : Fin 3) * 1 + 1 * (y 0).val = p.val; omega)
    (by show win0_14.index t (2 : Fin 3) * 1024 + 1 * (y 2).val = (y 2).val; omega)

/-- An index of the array is in point `t`'s block iff each coordinate is in the block's range on its axis. -/
theorem mem_blk14 (t : Fin cfg0.N) (i : S2x1x1024.Idx) :
    i ∈ ((cfg0.win 14).blk t).view.set ↔ ∀ a : Fin 3, win0_14.index t a * S1x1x1024.size a ≤ (i a).val
      ∧ (i a).val < win0_14.index t a * S1x1x1024.size a + S1x1x1024.size a := by
  show i ∈ ((View.whole main_v8_4).slice (win0_14.rect t)).set ↔ _
  rw [View.set_slice_whole, Rect.mem_set_unit]
  exact Iff.rfl

/-- Every index of the array is in the block of the last point of its half, which is written back. -/
theorem cover14 (i : S2x1x1024.Idx) :
    ∃ t : Fin cfg0.N, (cfg0.win 14).flush t = true ∧ i ∈ ((cfg0.win 14).blk t).view.set := by
  have hN : cfg0.N = 32 := N_0
  have hi0 : (i 0).val < 2 := (i 0).isLt
  have hi1 : (i 1).val < 1 := (i 1).isLt
  have hi2 : (i 2).val < 1024 := (i 2).isLt
  obtain ⟨t, ht⟩ : ∃ t : Fin cfg0.N, t.val = 16 * (i 0).val + 15 := ⟨⟨16 * (i 0).val + 15, by omega⟩, rfl⟩
  obtain ⟨-, -, -, -, ⟨e0, e1, e2⟩, -⟩ := idx_facts t
  refine ⟨t, (flush0_14 t).mpr (by omega), ?_⟩
  rw [mem_blk14]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 1 ≤ (i 1).val ∧ (i 1).val < win0_14.index t (1 : Fin 3) * 1 + 1; omega
  | ⟨2, _⟩ => show win0_14.index t (2 : Fin 3) * 1024 ≤ (i 2).val ∧ (i 2).val < win0_14.index t (2 : Fin 3) * 1024 + 1024; omega

/-- The array of window 14 after the run, at `(p, 0, d)`. -/
theorem arr14 (c : Dev nD) (G : Fin 2 → Fin 1024 → EReal)
    (h : ∀ (p : Fin 2) (hp : 16 * p.val + 15 < cfg0.N) (d : Fin 1024),
      (outsAt0 m c (16 * p.val + 15) hp).2.2.2.2.1 (ix3 (0 : Fin 1) (0 : Fin 1) d) = G p d) :
    ∀ (p : Fin 2) (d : Fin 1024), (dats m 0 c).arrAt 14 cfg0.N (ix3 p (0 : Fin 1) d) = G p d := by
  intro p d
  rw [(dats m 0 c).arrAt_eq_of_cover 14 (full G) (flushed14_eq m c G h) cover14]
  rfl

/-! ### Window 15 -/

/-- What a flushing point writes back is its block of the function. -/
theorem flushed15_eq (c : Dev nD) (G : Fin 2 → Fin 1024 → EReal)
    (h : ∀ (p : Fin 2) (hp : 16 * p.val + 15 < cfg0.N) (d : Fin 1024),
      (outsAt0 m c (16 * p.val + 15) hp).2.2.2.2.2 (ix3 (0 : Fin 1) (0 : Fin 1) d) = G p d)
    (t : Fin cfg0.N) (hf : (cfg0.win 15).flush t = true) :
    (dats m 0 c).flushed 15 t = ((cfg0.win 15).blk t).view.read (Elt Ideal) (full G) := by
  show (cfg0.win 15).cut (grid0.coords t) ((dats m 0 c).after 15 t) = _
  rw [after0_15]
  have h15 : t.val % 16 = 15 := (flush0_15 t).mp hf
  obtain ⟨-, -, -, -, -, ⟨e0, e1, e2⟩⟩ := idx_facts t
  have hN : cfg0.N = 32 := N_0
  have ht : t.val < 32 := hN ▸ t.isLt
  obtain ⟨p, hp⟩ : ∃ p : Fin 2, p.val = t.val / 16 := ⟨⟨t.val / 16, by omega⟩, rfl⟩
  have hX : ∀ d : Fin 1024, (outsAt0 m c t.val t.isLt).2.2.2.2.2 (ix3 (0 : Fin 1) (0 : Fin 1) d) = G p d := by
    intro d
    rw [outs_congr m c t.val (16 * p.val + 15) (by omega) t.isLt (by omega)]
    exact h p _ d
  funext y
  rw [View.read_apply]
  have hy0 : (y 0).val < 1 := (y 0).isLt
  show (outsAt0 m c t.val t.isLt).2.2.2.2.2 y = full G (((cfg0.win 15).blk t).view.emb y)
  exact point_read G _ p hX y _
    (by show win0_15.index t (0 : Fin 3) * 1 + 1 * (y 0).val = p.val; omega)
    (by show win0_15.index t (2 : Fin 3) * 1024 + 1 * (y 2).val = (y 2).val; omega)

/-- An index of the array is in point `t`'s block iff each coordinate is in the block's range on its axis. -/
theorem mem_blk15 (t : Fin cfg0.N) (i : S2x1x1024.Idx) :
    i ∈ ((cfg0.win 15).blk t).view.set ↔ ∀ a : Fin 3, win0_15.index t a * S1x1x1024.size a ≤ (i a).val
      ∧ (i a).val < win0_15.index t a * S1x1x1024.size a + S1x1x1024.size a := by
  show i ∈ ((View.whole main_v8_5).slice (win0_15.rect t)).set ↔ _
  rw [View.set_slice_whole, Rect.mem_set_unit]
  exact Iff.rfl

/-- Every index of the array is in the block of the last point of its half, which is written back. -/
theorem cover15 (i : S2x1x1024.Idx) :
    ∃ t : Fin cfg0.N, (cfg0.win 15).flush t = true ∧ i ∈ ((cfg0.win 15).blk t).view.set := by
  have hN : cfg0.N = 32 := N_0
  have hi0 : (i 0).val < 2 := (i 0).isLt
  have hi1 : (i 1).val < 1 := (i 1).isLt
  have hi2 : (i 2).val < 1024 := (i 2).isLt
  obtain ⟨t, ht⟩ : ∃ t : Fin cfg0.N, t.val = 16 * (i 0).val + 15 := ⟨⟨16 * (i 0).val + 15, by omega⟩, rfl⟩
  obtain ⟨-, -, -, -, -, ⟨e0, e1, e2⟩⟩ := idx_facts t
  refine ⟨t, (flush0_15 t).mpr (by omega), ?_⟩
  rw [mem_blk15]
  intro a
  match a with
  | ⟨0, _⟩ => show win0_15.index t (0 : Fin 3) * 1 ≤ (i 0).val ∧ (i 0).val < win0_15.index t (0 : Fin 3) * 1 + 1; omega
  | ⟨1, _⟩ => show win0_15.index t (1 : Fin 3) * 1 ≤ (i 1).val ∧ (i 1).val < win0_15.index t (1 : Fin 3) * 1 + 1; omega
  | ⟨2, _⟩ => show win0_15.index t (2 : Fin 3) * 1024 ≤ (i 2).val ∧ (i 2).val < win0_15.index t (2 : Fin 3) * 1024 + 1024; omega

/-- The array of window 15 after the run, at `(p, 0, d)`. -/
theorem arr15 (c : Dev nD) (G : Fin 2 → Fin 1024 → EReal)
    (h : ∀ (p : Fin 2) (hp : 16 * p.val + 15 < cfg0.N) (d : Fin 1024),
      (outsAt0 m c (16 * p.val + 15) hp).2.2.2.2.2 (ix3 (0 : Fin 1) (0 : Fin 1) d) = G p d) :
    ∀ (p : Fin 2) (d : Fin 1024), (dats m 0 c).arrAt 15 cfg0.N (ix3 p (0 : Fin 1) d) = G p d := by
  intro p d
  rw [(dats m 0 c).arrAt_eq_of_cover 15 (full G) (flushed15_eq m c G h) cover15]
  rfl

end Cert.KernelIdeal.Arrays

end
-- ==== Proof.TailDef.lean ====
/-
  The host operations after the region, as one pure term of the six accumulator arrays.

  Each accumulator array has one row of 1024 columns per half of the batch. The tail adds the two halves column by
  column (the positive-term array is summed over everything), divides the sums of `z` and `z²` by the number of rows,
  combines the column sums into `(E2 · S0 − (two · E1) · S1) + S2`, sums that over the columns, negates it, subtracts
  it from the positive total and divides by the number of rows.
-/
import proofs.«139930_j47794396070568_2_alg».proof.KernelIdeal
import proofs.«139930_j47794396070568_2_alg».proof.Proof.Gen.KernelIdeal

noncomputable section

namespace Cert.KernelIdeal.Tail

open Cert.KernelIdeal Cert.KernelIdeal.Facts₀ Cert.KernelIdeal.Facts Idealize.ShloMosaic

variable {F : FTy → Type} [FloatOps F]

/-- The sum of an accumulator array over both halves and every column. -/
def redAll (x : FVec F S2x1x1024 .f32) : FVec F S_ .f32 :=
  Host.reduceAdd x (constant (F := F) S_ .f32 0x00000000#32) reducesTo_S2x1x1024_S_d0_1_2 h_S_

/-- The sum of an accumulator array over the two halves, column by column. -/
def redHalves (x : FVec F S2x1x1024 .f32) : FVec F S1024 .f32 :=
  Host.reduceAdd x (constant (F := F) S_ .f32 0x00000000#32) reducesTo_S2x1x1024_S1024_d0_1 h_S_

/-- A scalar constant broadcast over the 1024 columns. -/
def splat (b : BitVec 32) : FVec F S1024 .f32 := broadcastInDim S1024 ![] bcast_S_S1024 (constant (F := F) S_ .f32 b)

/-- The tail: the estimate from the six accumulator arrays. -/
def tailTerm (o10 o11 o12 o13 o14 o15 : FVec F S2x1x1024 .f32) : FVec F S_ .f32 :=
  Host.divf
    (subf (redAll o10)
      (Host.negf
        (Host.reduceAdd
          (addf
            (subf (mulf (Host.divf (redHalves o12) (splat 0x46800000#32)) (redHalves o13))
              (mulf (mulf (splat 0x40000000#32) (Host.divf (redHalves o11) (splat 0x46800000#32))) (redHalves o14)))
            (redHalves o15))
          (constant (F := F) S_ .f32 0x00000000#32) reducesTo_S1024_S_d0 h_S_)))
    (constant (F := F) S_ .f32 0x46800000#32)

end Cert.KernelIdeal.Tail

end
-- ==== Proof.TailValue.lean ====
/-
  The host tail read at the extended reals.

  At the ideal values a host sum is its initial value plus the sum of the operand entries that reduce to the result
  index. The accumulator arrays have shape `[2, 1, 1024]`: the entries that reduce to column `d` under the sum over the
  first two axes are the two entries `(p, 0, d)`, `p` the half of the batch, and the entries of the whole array are the
  `(p, 0, d)` over both halves and every column. The initial values are the pattern of zero, a broadcast scalar reads
  the scalar at every column, and the elementwise operations are the extended reals' at each index. With each
  accumulator array holding the per-half column sums of its quantity, the tail is, term by term, the blocked form
  of the estimate.
-/
import proofs.«139930_j47794396070568_2_alg».proof.Proof.TailDef
import proofs.«139930_j47794396070568_2_alg».proof.Proof.Spec
import Idealize.ShloMosaic.Lib.ValueIdx
import Idealize.ShloMosaic.PureOps.Ideal.Laws

noncomputable section

namespace Cert.KernelIdeal.Tail

open Cert.KernelIdeal Cert.KernelIdeal.Facts₀ Cert.KernelIdeal.Facts Idealize.ShloMosaic Idealize.ShloMosaic.ValueIdx
open Cert.ClubSpec

/-! ### The index sets -/

/-- An index of a `[2, 1, 1024]` array is `(p, 0, d)`: the pair of its half and its column. -/
def idxEquiv : S2x1x1024.Idx ≃ Fin 2 × Fin 1024 where
  toFun i := (i 0, i 2)
  invFun q := ix3 q.1 (0 : Fin 1) q.2
  left_inv i := by
    refine ((eq_ix3 i).trans ?_).symm
    have h1 : i 1 = (0 : Fin 1) := Fin.eq_zero _
    rw [h1]
    rfl
  right_inv _ := rfl

/-- The sum over a `[2, 1, 1024]` array is the double sum over halves and columns. -/
theorem sum_idx (f : S2x1x1024.Idx → EReal) : ∑ i, f i = ∑ p : Fin 2, ∑ d : Fin 1024, f (ix3 p (0 : Fin 1) d) := by
  rw [← Equiv.sum_comp idxEquiv.symm f, Fintype.sum_prod_type]
  rfl

/-- An index of a `[1024]` array is its one coordinate. -/
def idxEquiv1 : S1024.Idx ≃ Fin 1024 where
  toFun i := i 0
  invFun d := ix1 d
  left_inv i := (eq_ix1 i).symm
  right_inv _ := rfl

/-- The sum over a `[1024]` array is the sum over its coordinate. -/
theorem sum_idx1 (f : S1024.Idx → EReal) : ∑ i, f i = ∑ d : Fin 1024, f (ix1 d) := by
  rw [← Equiv.sum_comp idxEquiv1.symm f]
  rfl

/-- The two entries of column `d`, one per half. -/
def halfEmb (d : Fin 1024) : Fin 2 ↪ S2x1x1024.Idx :=
  ⟨fun p => ix3 p (0 : Fin 1) d, fun p p' h => by have := congrFun h 0; exact this⟩

/-- Dropping the first two axes of `(p, 0, d)` leaves `d`. -/
theorem drop_ix3 (p : Fin 2) (d : Fin 1024) :
    reducesTo_S2x1x1024_S1024_d0_1.drop (ix3 p (0 : Fin 1) d) = ix1 d := by
  funext b
  match b with
  | ⟨0, _⟩ => rfl

/-- An index that drops to `d` is `(its half, 0, d)`. -/
theorem eq_ix3_of_drop (i : S2x1x1024.Idx) (d : Fin 1024) (h : reducesTo_S2x1x1024_S1024_d0_1.drop i = ix1 d) :
    i = ix3 (i 0) (0 : Fin 1) d := by
  have h2 : i 2 = d := congrFun h 0
  have h1 : i 1 = (0 : Fin 1) := Fin.eq_zero _
  rw [← h2, ← h1]
  exact eq_ix3 i

/-- The entries a sum over the first two axes adds at column `d` are the two `(p, 0, d)`. -/
theorem filter_drop (d : Fin 1024) :
    Finset.univ.filter (fun i : S2x1x1024.Idx => reducesTo_S2x1x1024_S1024_d0_1.drop i = ix1 d)
      = Finset.univ.map (halfEmb d) := by
  ext i
  simp only [Finset.mem_filter, Finset.mem_univ, true_and, Finset.mem_map, halfEmb, Function.Embedding.coeFn_mk]
  exact ⟨fun h => ⟨i 0, (eq_ix3_of_drop i d h).symm⟩, fun ⟨p, hp⟩ => hp ▸ drop_ix3 p d⟩

/-! ### The three sums of the tail -/

/-- The sum over everything: both halves and every column. -/
theorem redAll_apply (o : FVec Ideal S2x1x1024 .f32) (j : S_.Idx) :
    redAll (F := Ideal) o j = ∑ p : Fin 2, ∑ d : Fin 1024, o (ix3 p (0 : Fin 1) d) := by
  show Ideal.hostReduceAdd reducesTo_S2x1x1024_S_d0_1_2 o (Ideal.ofBits .f32 0x00000000#32) j = _
  rw [Ideal.hostReduceAdd_total _ (fun b => b.elim0), Ideal.ofBits_zero_f32, zero_add, sum_idx]

/-- The sum over the two halves at column `d`. -/
theorem redHalves_apply (o : FVec Ideal S2x1x1024 .f32) (d : Fin 1024) :
    redHalves (F := Ideal) o (ix1 d) = ∑ p : Fin 2, o (ix3 p (0 : Fin 1) d) := by
  show Ideal.hostReduceAdd reducesTo_S2x1x1024_S1024_d0_1 o (Ideal.ofBits .f32 0x00000000#32) (ix1 d) = _
  unfold Ideal.hostReduceAdd
  rw [filter_drop, Finset.sum_map, Ideal.ofBits_zero_f32, zero_add]
  rfl

/-- The sum of a row of 1024 columns. -/
theorem redCols_apply (v : FVec Ideal S1024 .f32) (j : S_.Idx) :
    Host.reduceAdd v (constant (F := Ideal) S_ .f32 0x00000000#32) reducesTo_S1024_S_d0 h_S_ j
      = ∑ d : Fin 1024, v (ix1 d) := by
  show Ideal.hostReduceAdd reducesTo_S1024_S_d0 v (Ideal.ofBits .f32 0x00000000#32) j = _
  rw [Ideal.hostReduceAdd_total _ (fun b => b.elim0), Ideal.ofBits_zero_f32, zero_add, sum_idx1]

/-- A broadcast scalar constant reads its value at every column. -/
theorem splat_apply (b : BitVec 32) (i : S1024.Idx) : splat (F := Ideal) b i = Ideal.ofBits .f32 b := rfl

/-! ### The tail is the blocked form of the estimate -/

/-- With each accumulator array holding the per-half column sums of its quantity, the tail's value is `kerVal`. -/
theorem tailTerm_eq (o10 o11 o12 o13 o14 o15 : FVec Ideal S2x1x1024 .f32) (mu s z : Fin 16384 → Fin 1024 → EReal)
    (h10 : ∀ (p : Fin 2) (d : Fin 1024), o10 (ix3 p (0 : Fin 1) d) = acc (posT mu s z) p d)
    (h11 : ∀ (p : Fin 2) (d : Fin 1024), o11 (ix3 p (0 : Fin 1) d) = acc z p d)
    (h12 : ∀ (p : Fin 2) (d : Fin 1024), o12 (ix3 p (0 : Fin 1) d) = acc (fun i d => z i d * z i d) p d)
    (h13 : ∀ (p : Fin 2) (d : Fin 1024), o13 (ix3 p (0 : Fin 1) d) = acc s p d)
    (h14 : ∀ (p : Fin 2) (d : Fin 1024), o14 (ix3 p (0 : Fin 1) d) = acc (fun i d => mu i d * s i d) p d)
    (h15 : ∀ (p : Fin 2) (d : Fin 1024), o15 (ix3 p (0 : Fin 1) d) = acc (fun i d => (mu i d * mu i d) * s i d) p d) :
    tailTerm (F := Ideal) o10 o11 o12 o13 o14 o15
      = fun _ => kerVal (Ideal.ofBits .f32 0x40000000#32) (Ideal.ofBits .f32 0x46800000#32) mu s z := by
  funext j
  show Ideal.div (redAll (F := Ideal) o10 j
      - -(Host.reduceAdd
            (addf
              (subf (mulf (Host.divf (redHalves (F := Ideal) o12) (splat 0x46800000#32)) (redHalves (F := Ideal) o13))
                (mulf (mulf (splat 0x40000000#32) (Host.divf (redHalves (F := Ideal) o11) (splat 0x46800000#32)))
                  (redHalves (F := Ideal) o14)))
              (redHalves (F := Ideal) o15))
            (constant (F := Ideal) S_ .f32 0x00000000#32) reducesTo_S1024_S_d0 h_S_ j))
      (Ideal.ofBits .f32 0x46800000#32) = _
  rw [redAll_apply, redCols_apply]
  unfold kerVal colsum
  refine congrArg (fun t => Ideal.div t _) ?_
  refine congrArg₂ (fun a b => a - -b) ?_ ?_
  · exact Finset.sum_congr rfl fun p _ => Finset.sum_congr rfl fun d _ => h10 p d
  · refine Finset.sum_congr rfl fun d _ => ?_
    show ((Ideal.div (redHalves (F := Ideal) o12 (ix1 d)) (Ideal.ofBits .f32 0x46800000#32))
            * redHalves (F := Ideal) o13 (ix1 d)
          - (Ideal.ofBits .f32 0x40000000#32
              * Ideal.div (redHalves (F := Ideal) o11 (ix1 d)) (Ideal.ofBits .f32 0x46800000#32))
            * redHalves (F := Ideal) o14 (ix1 d))
        + redHalves (F := Ideal) o15 (ix1 d) = _
    rw [redHalves_apply, redHalves_apply, redHalves_apply, redHalves_apply, redHalves_apply]
    simp only [h11, h12, h13, h14, h15]

end Cert.KernelIdeal.Tail

end
-- ==== Proof.KerRun.lean ====
/-
  The blocked program's run, read as a value.

  Every weakly fair execution ends with each accumulator array holding, for each half of the batch and each column,
  the half's column sum of its per-row quantity; the operations after the region turn the six arrays into the
  estimate in its blocked form; the argument arrays end unchanged.
-/
import proofs.«139930_j47794396070568_2_alg».proof.Proof.Chain
import proofs.«139930_j47794396070568_2_alg».proof.Proof.Arrays
import proofs.«139930_j47794396070568_2_alg».proof.Proof.TailValue
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerRun

open Cert.KernelIdeal Cert.KernelIdeal.Gen Cert.KernelIdeal.Tail Cert.KernelIdeal.Chain Cert.KernelIdeal.Arrays Cert.KernelIdeal.Step

variable (m : (ℓ : Loc nD τ sig) → Buf (Elt Ideal) ℓ) (ρ : Dev nD → PrngReg)

/-- The operations after the region, from any contents of the buffers: the result is the tail's term of the six
    accumulator arrays. -/
theorem tail_generic (W : Valuation τ sig (Elt Ideal)) :
    StableHlo.after (hostOps1 (F := Ideal)) W (Proc.devRef .tc main_v28)
      = tailTerm (F := Ideal) (W (Proc.devRef .tc main_v8_0)) (W (Proc.devRef .tc main_v8_1)) (W (Proc.devRef .tc main_v8_2))
          (W (Proc.devRef .tc main_v8_3)) (W (Proc.devRef .tc main_v8_4)) (W (Proc.devRef .tc main_v8_5)) := by
  after_results_simp
  rfl

/-- The result buffer after the run: the estimate in its blocked form. -/
theorem result_eq (c : Dev nD) :
    Pipeline.afterTail₀ cfgs (dats m) 0 (V0 m) [hostOps1] c main_v28
      = fun _ => Cert.ClubSpec.kerVal (Ideal.ofBits .f32 0x40000000#32) (Ideal.ofBits .f32 0x46800000#32)
          (muOf (a0 m c) (a2 m c) (a3 m c) (a4 m c) (a5 m c)) (sgOf (a0 m c) (a6 m c) (a7 m c) (a8 m c) (a9 m c)) (zOf (a1 m c)) := by
  unfold Pipeline.afterTail₀
  simp only [List.flatten_cons, List.flatten_nil, List.append_nil]
  refine (tail_generic _).trans ?_
  rw [show Pipeline.withArrays (cfgs 0).spec c (V0 m c) (fun w => (dats m 0 c).arrAt w (cfgs 0).N) (Proc.devRef .tc main_v8_0) = (dats m 0 c).arrAt 10 cfg0.N from
        Pipeline.withArrays_arr (cfgs 0).spec launch0.win.arr_inj c _ _ 10,
      show Pipeline.withArrays (cfgs 0).spec c (V0 m c) (fun w => (dats m 0 c).arrAt w (cfgs 0).N) (Proc.devRef .tc main_v8_1) = (dats m 0 c).arrAt 11 cfg0.N from
        Pipeline.withArrays_arr (cfgs 0).spec launch0.win.arr_inj c _ _ 11,
      show Pipeline.withArrays (cfgs 0).spec c (V0 m c) (fun w => (dats m 0 c).arrAt w (cfgs 0).N) (Proc.devRef .tc main_v8_2) = (dats m 0 c).arrAt 12 cfg0.N from
        Pipeline.withArrays_arr (cfgs 0).spec launch0.win.arr_inj c _ _ 12,
      show Pipeline.withArrays (cfgs 0).spec c (V0 m c) (fun w => (dats m 0 c).arrAt w (cfgs 0).N) (Proc.devRef .tc main_v8_3) = (dats m 0 c).arrAt 13 cfg0.N from
        Pipeline.withArrays_arr (cfgs 0).spec launch0.win.arr_inj c _ _ 13,
      show Pipeline.withArrays (cfgs 0).spec c (V0 m c) (fun w => (dats m 0 c).arrAt w (cfgs 0).N) (Proc.devRef .tc main_v8_4) = (dats m 0 c).arrAt 14 cfg0.N from
        Pipeline.withArrays_arr (cfgs 0).spec launch0.win.arr_inj c _ _ 14,
      show Pipeline.withArrays (cfgs 0).spec c (V0 m c) (fun w => (dats m 0 c).arrAt w (cfgs 0).N) (Proc.devRef .tc main_v8_5) = (dats m 0 c).arrAt 15 cfg0.N from
        Pipeline.withArrays_arr (cfgs 0).spec launch0.win.arr_inj c _ _ 15]
  exact tailTerm_eq _ _ _ _ _ _ _ _ _
    (arr10 m c _ fun p hp d => (Chain.last m c p hp d).1)
    (arr11 m c _ fun p hp d => (Chain.last m c p hp d).2.1)
    (arr12 m c _ fun p hp d => (Chain.last m c p hp d).2.2.1)
    (arr13 m c _ fun p hp d => (Chain.last m c p hp d).2.2.2.1)
    (arr14 m c _ fun p hp d => (Chain.last m c p hp d).2.2.2.2.1)
    (arr15 m c _ fun p hp d => (Chain.last m c p hp d).2.2.2.2.2)

/-- The run: the result at the blocked estimate of the argument arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v28)
        = (fun _ => Cert.ClubSpec.kerVal (Ideal.ofBits .f32 0x40000000#32) (Ideal.ofBits .f32 0x46800000#32)
            (Cert.ClubSpec.ff (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
            (Cert.ClubSpec.sigma (Ideal.ofBits .f32 0x3F000000#32) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)))
            (fun i d => m ((c.tc : Thread nD τ).loc main_arg1) (ValueIdx.ix2 i d)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v28 (Pipeline.mem_restRefs_of main_v28 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.KerRun
end
-- ==== Proof.RefValue.lean ====
/-
  The row-by-row program computes the specification's estimate.

  Read one operation at a time, every intermediate array of the row-by-row program is a named quantity of the
  specification at the coordinates (i, d) of a row and a feature:
  the first matrix product plus its bias, clamped below at zero, is the hidden layer; the second product plus its
  bias is the perceptron mu; the same chain over the second set of weights, passed through tanh, negation, exp and the
  factor one half, is s; the sums of z and of z squared down a column divided by the number of rows are the column
  means E1 and E2; then pos = -(mu - z)^2 * s and neg = -((E2 - (2 mu) E1) + mu^2) * s, and the result is the sum of
  pos - neg over every feature of every row, divided by the number of rows. No algebraic law is needed: each sum of
  the program is the same sum of the specification, re-indexed by coordinates, and the zero a sum starts from is
  absorbed by 0 + x = x.
-/
import proofs.«139930_j47794396070568_2_alg».proof.Proof.Gen.ReferenceIdeal.Read
import proofs.«139930_j47794396070568_2_alg».proof.Proof.Spec

noncomputable section

namespace Cert.ReferenceIdeal.RefValue

open Cert.ReferenceIdeal Cert.ReferenceIdeal.Gen Cert.ReferenceIdeal.Read Cert.ClubSpec
open Idealize.ShloMosaic Idealize.ShloMosaic.ValueIdx Idealize.ShloMosaic.TcCoe Idealize.SL.Sem

/-- A batch of rows: 16384 rows of 1024 features. -/
abbrev A : Type := (⟨S16384x1024, .f32⟩ : BufTy).Contents (Elt Ideal)
/-- A square weight matrix. -/
abbrev W : Type := (⟨S1024x1024, .f32⟩ : BufTy).Contents (Elt Ideal)
/-- A bias vector. -/
abbrev B : Type := (⟨S1024, .f32⟩ : BufTy).Contents (Elt Ideal)

local notation "cTwo" => Ideal.ofBits FTy.f32 0x40000000#32
local notation "cN" => Ideal.ofBits FTy.f32 0x46800000#32
local notation "cHalf" => Ideal.ofBits FTy.f32 0x3F000000#32

/-! ## A sum over a rank-1 index set is the sum over its coordinate -/

/-- A rank-1 index is its one coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]; rfl

/-! ## The hidden layer and the perceptron -/

/-- The first layer clamped at zero is the hidden layer: entry (i, k) sums row i of the input against column k of the
    first weight matrix, adds the k-th bias and takes the maximum with zero. -/
theorem v4_eq (x0 : A) (x2 : W) (x3 : B) (i : Fin 16384) (k : Fin 1024) :
    val_main_v4 (F := Ideal) x0 x2 x3 (ix2 i k) = hid x0 x2 x3 i k := by
  rw [val_main_v4_apply, val_main_v3_apply, val_main_v0_apply, val_main_v2_apply, val_main_v1_apply,
    val_main_call0_v0_apply, val_main_call0_cst_apply]
  have hl : ∀ j : Fin 1024, lidx_main_v0 (ix2 i k) j = ix2 i j := fun j => by
    funext a; match a with | ⟨0, _⟩ => rfl | ⟨1, _⟩ => rfl
  have hr : ∀ j : Fin 1024, ridx_main_v0 (ix2 i k) j = ix2 j k := fun j => by
    funext a; match a with | ⟨0, _⟩ => rfl | ⟨1, _⟩ => rfl
  have hb : idx_main_v1 (idx_main_v2 (ix2 i k)) = ix1 k := by
    funext a; match a with | ⟨0, _⟩ => rfl
  simp only [hl, hr, hb, Ideal.maximumf_def, Ideal.addf_def, Ideal.ofBits_def, Ideal.ofBits_zero_f32]
  rfl

/-- The second layer over the hidden layer is the perceptron. -/
theorem v8_eq (x0 : A) (x2 : W) (x3 : B) (x4 : W) (x5 : B) (i : Fin 16384) (d : Fin 1024) :
    val_main_v8 (F := Ideal) x0 x2 x3 x4 x5 (ix2 i d) = ff x0 x2 x3 x4 x5 i d := by
  rw [val_main_v8_apply, val_main_v5_apply, val_main_v7_apply, val_main_v6_apply]
  have hl : ∀ k : Fin 1024, lidx_main_v5 (ix2 i d) k = ix2 i k := fun k => by
    funext a; match a with | ⟨0, _⟩ => rfl | ⟨1, _⟩ => rfl
  have hr : ∀ k : Fin 1024, ridx_main_v5 (ix2 i d) k = ix2 k d := fun k => by
    funext a; match a with | ⟨0, _⟩ => rfl | ⟨1, _⟩ => rfl
  have hb : idx_main_v6 (idx_main_v7 (ix2 i d)) = ix1 d := by
    funext a; match a with | ⟨0, _⟩ => rfl
  simp only [hl, hr, hb, v4_eq, Ideal.addf_def]
  rfl

/-- The two perceptrons of the program are one function of their weights. -/
theorem v17_eq_v8 (x0 : A) (x6 : W) (x7 : B) (x8 : W) (x9 : B) :
    val_main_v17 (F := Ideal) x0 x6 x7 x8 x9 = val_main_v8 (F := Ideal) x0 x6 x7 x8 x9 := rfl

/-- One half of the exponential of minus the hyperbolic tangent of the second perceptron is sigma. -/
theorem v22_eq (x0 : A) (x6 : W) (x7 : B) (x8 : W) (x9 : B) (i : Fin 16384) (d : Fin 1024) :
    val_main_v22 (F := Ideal) x0 x6 x7 x8 x9 (ix2 i d) = sigma cHalf x0 x6 x7 x8 x9 i d := by
  rw [val_main_v22_apply, val_main_v21_apply, val_main_cst_apply, val_main_v20_apply, val_main_v19_apply,
    val_main_v18_apply, v17_eq_v8, v8_eq]
  simp only [Ideal.mulf_def, Ideal.hostUnary_exp_def, Ideal.hostNegf_def, Ideal.negf_def, Ideal.hostUnary_tanh_def,
    Ideal.ofBits_def]
  rfl

/-! ## The column means -/

/-- The sum of column d of the second input over all rows, divided by the number of rows. -/
theorem v29_eq (x1 : A) (d : Fin 1024) :
    val_main_v29 (F := Ideal) x1 (ix1 d) = meanCol cN (fun i d => x1 (ix2 i d)) d := by
  rw [val_main_v29_apply, val_main_v27_apply, val_main_v28_apply, val_main_cst_1_apply, val_main_cst_0_apply]
  have hk : ∀ k : Fin 16384, idx_main_v27 (ix1 d) k = ix2 k d := fun k => by
    funext a; match a with | ⟨0, _⟩ => rfl | ⟨1, _⟩ => rfl
  simp only [hk, Ideal.hostDivf_def, Ideal.ofBits_def, Ideal.ofBits_zero_f32, zero_add]
  rfl

/-- The same for the squares of the second input. -/
theorem v33_eq (x1 : A) (d : Fin 1024) :
    val_main_v33 (F := Ideal) x1 (ix1 d) = meanCol cN (fun i d => x1 (ix2 i d) * x1 (ix2 i d)) d := by
  rw [val_main_v33_apply, val_main_v31_apply, val_main_v32_apply, val_main_cst_3_apply, val_main_cst_2_apply]
  have hk : ∀ k : Fin 16384, idx_main_v31 (ix1 d) k = ix2 k d := fun k => by
    funext a; match a with | ⟨0, _⟩ => rfl | ⟨1, _⟩ => rfl
  simp only [hk, val_main_v30_apply, Ideal.mulf_def, Ideal.hostDivf_def, Ideal.ofBits_def, Ideal.ofBits_zero_f32, zero_add]
  rfl

/-! ## The positive and the negative term -/

variable (a0 a1 : A) (a2 : W) (a3 : B) (a4 : W) (a5 : B) (a6 : W) (a7 : B) (a8 : W) (a9 : B)

/-- Minus the squared distance of the mean perceptron from the second input, times sigma. -/
theorem v26_eq (i : Fin 16384) (d : Fin 1024) :
    val_main_v26 (F := Ideal) a0 a1 a2 a3 a4 a5 a6 a7 a8 a9 (ix2 i d)
      = posT (ff a0 a2 a3 a4 a5) (sigma cHalf a0 a6 a7 a8 a9) (fun i d => a1 (ix2 i d)) i d := by
  rw [val_main_v26_apply, val_main_v25_apply, val_main_v24_apply, val_main_v23_apply, v8_eq, v22_eq]
  simp only [Ideal.mulf_def, Ideal.subf_def, Ideal.hostNegf_def, Ideal.negf_def]
  rfl

/-- Minus the expected squared distance under the column means, times sigma. -/
theorem v45_eq (i : Fin 16384) (d : Fin 1024) :
    val_main_v45 (F := Ideal) a0 a1 a2 a3 a4 a5 a6 a7 a8 a9 (ix2 i d)
      = negT cTwo cN (ff a0 a2 a3 a4 a5) (sigma cHalf a0 a6 a7 a8 a9) (fun i d => a1 (ix2 i d)) i d := by
  rw [val_main_v45_apply, val_main_v44_apply, val_main_v43_apply, val_main_v41_apply, val_main_v42_apply,
    val_main_v40_apply, val_main_v39_apply, val_main_v38_apply, val_main_v35_apply, val_main_v37_apply,
    val_main_v36_apply, val_main_v34_apply, val_main_cst_4_apply, v8_eq, v22_eq]
  have h1 : idx_main_v36 (idx_main_v37 (ix2 i d)) = ix1 d := by
    funext a; match a with | ⟨0, _⟩ => rfl
  have h2 : idx_main_v39 (idx_main_v40 (ix2 i d)) = ix1 d := by
    funext a; match a with | ⟨0, _⟩ => rfl
  rw [h1, h2, v29_eq, v33_eq]
  simp only [Ideal.mulf_def, Ideal.subf_def, Ideal.addf_def, Ideal.hostNegf_def, Ideal.negf_def, Ideal.ofBits_def]
  rfl

/-- The summand of the estimate at row i, feature d. -/
theorem v46_eq (i : Fin 16384) (d : Fin 1024) :
    val_main_v46 (F := Ideal) a0 a1 a2 a3 a4 a5 a6 a7 a8 a9 (ix2 i d)
      = posT (ff a0 a2 a3 a4 a5) (sigma cHalf a0 a6 a7 a8 a9) (fun i d => a1 (ix2 i d)) i d
        - negT cTwo cN (ff a0 a2 a3 a4 a5) (sigma cHalf a0 a6 a7 a8 a9) (fun i d => a1 (ix2 i d)) i d := by
  rw [val_main_v46_apply, v26_eq, v45_eq]
  rfl

/-! ## The estimate -/

/-- The program's result: the summand added over the features of a row, then over the rows, divided by the number of
    rows. -/
theorem result_eq :
    val_main_v49 (F := Ideal) a0 a1 a2 a3 a4 a5 a6 a7 a8 a9
      = fun _ => refVal (Ideal.ofBits .f32 0x40000000#32) (Ideal.ofBits .f32 0x46800000#32)
          (ff a0 a2 a3 a4 a5) (sigma (Ideal.ofBits .f32 0x3F000000#32) a0 a6 a7 a8 a9) (fun i d => a1 (ix2 i d)) := by
  funext j
  rw [val_main_v49_apply, val_main_v48_apply, val_main_cst_7_apply, val_main_cst_6_apply, sum_idx1]
  have hk : ∀ (i : Fin 16384) (k : Fin 1024), idx_main_v47 (ix1 i) k = ix2 i k := fun i k => by
    funext a; match a with | ⟨0, _⟩ => rfl | ⟨1, _⟩ => rfl
  simp only [val_main_v47_apply, val_main_cst_5_apply, hk, v46_eq, Ideal.hostDivf_def, Ideal.ofBits_def,
    Ideal.ofBits_zero_f32, zero_add]
  rfl

/-- Every weakly fair execution of the row-by-row program terminates with its result at the specification's estimate
    of the argument arrays, and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v49)
        = (fun _ => refVal (Ideal.ofBits .f32 0x40000000#32) (Ideal.ofBits .f32 0x46800000#32)
            (ff (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5)))
            (sigma (Ideal.ofBits .f32 0x3F000000#32) (m ((c.tc : Thread nD τ).loc main_arg0)) (m ((c.tc : Thread nD τ).loc main_arg6))
              (m ((c.tc : Thread nD τ).loc main_arg7)) (m ((c.tc : Thread nD τ).loc main_arg8)) (m ((c.tc : Thread nD τ).loc main_arg9)))
            (fun i d => m ((c.tc : Thread nD τ).loc main_arg1) (ix2 i d)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run Cert.ReferenceIdeal.defs _ _).mono
    (fun _ h c => ⟨(h c).1.trans ((val_main_v49_eq m c).trans (result_eq _ _ _ _ _ _ _ _ _ _)), (h c).2⟩)
    (Cert.ReferenceIdeal.Value.run (F := Ideal) m ρ)

end Cert.ReferenceIdeal.RefValue

end
-- ==== Proof.Algebra.lean ====
/-
  The algebra of the estimate over the reals.

  Both forms of the estimate are sums of products of the same finitely many real numbers. The blocked form sums each
  per-row quantity over `Fin 2 × Fin 16 × Fin 512`, which the map `(c, j, r) ↦ 8192 c + 512 j + r` identifies with
  `Fin 16384`; once every sum runs over all rows, the two forms differ by the distributive law only: the column means
  `E1`, `E2` do not depend on the row, so `∑ i, (E2 − two·mu i·E1 + mu i²)·s i` is
  `E2·∑ s − two·E1·∑ mu·s + ∑ mu²·s`. The extended reals are not a ring, so the identity is proved on real witnesses
  of the finite inputs and carried back through the coercion.
-/
import Idealize.ShloMosaic.PureOps.Ideal
import proofs.«139930_j47794396070568_2_alg».proof.Proof.Spec

noncomputable section

namespace Cert.ClubSpec

open Idealize.ShloMosaic Idealize.ShloMosaic.ValueIdx

/-! ### Sums of coercions -/

/-- A finite sum of coerced reals is the coercion of the real sum. -/
theorem coe_sum {ι : Type*} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-! ### The rows of the blocks are all the rows -/

/-- `(c, j, r) ↦ 8192 c + 512 j + r` is a bijection onto the rows; the inverse reads off the quotients. -/
def rowEquiv : Fin 2 × Fin 16 × Fin 512 ≃ Fin 16384 where
  toFun p := row p.1 p.2.1 p.2.2
  invFun i := (⟨i.val / 8192, by omega⟩, ⟨i.val % 8192 / 512, by omega⟩, ⟨i.val % 512, by omega⟩)
  left_inv := by
    rintro ⟨c, j, r⟩
    refine Prod.ext (Fin.ext ?_) (Prod.ext (Fin.ext ?_) (Fin.ext ?_)) <;> simp only [row] <;> omega
  right_inv := by
    intro i
    refine Fin.ext ?_
    simp only [row]
    omega

/-- Summing over halves, blocks and rows of a block is summing over all rows. -/
theorem sum_row {M : Type*} [AddCommMonoid M] (f : Fin 16384 → M) :
    ∑ c : Fin 2, ∑ j : Fin 16, ∑ r : Fin 512, f (row c j r) = ∑ i : Fin 16384, f i := by
  rw [← Fintype.sum_equiv rowEquiv (fun p => f (row p.1 p.2.1 p.2.2)) f (fun _ => rfl)]
  rw [Fintype.sum_prod_type]
  refine Finset.sum_congr rfl fun c _ => ?_
  rw [Fintype.sum_prod_type]

/-- The column sum of the blocked form is the sum over all rows. -/
theorem colsum_eq (X : Fin 16384 → Fin 1024 → EReal) (d : Fin 1024) : colsum X d = ∑ i : Fin 16384, X i d := by
  unfold colsum acc
  exact sum_row (fun i => X i d)

/-- The blocked double sum of a per-row quantity is its sum over all columns and rows. -/
theorem sum_acc (X : Fin 16384 → Fin 1024 → EReal) :
    ∑ c : Fin 2, ∑ d : Fin 1024, acc X c d = ∑ d : Fin 1024, ∑ i : Fin 16384, X i d := by
  rw [Finset.sum_comm]
  refine Finset.sum_congr rfl fun d _ => ?_
  exact colsum_eq X d

/-! ### The identity over the reals -/

/-- With `A`, `B` independent of the row, the negative terms sum to the combination of three column sums. -/
theorem sum_neg_real {ι : Type*} [Fintype ι] (A B t : ℝ) (μ σ : ι → ℝ) :
    ∑ i, (-((A - (t * μ i) * B) + μ i * μ i)) * σ i
      = -((A * ∑ i, σ i - (t * B) * ∑ i, μ i * σ i) + ∑ i, (μ i * μ i) * σ i) := by
  rw [Finset.mul_sum, Finset.mul_sum, ← Finset.sum_sub_distrib, ← Finset.sum_add_distrib, ← Finset.sum_neg_distrib]
  refine Finset.sum_congr rfl fun i _ => ?_
  ring

/-- The two forms of the estimate, over real data: `c` stands for `1 / n`. -/
theorem real_core {ι κ : Type*} [Fintype ι] [Fintype κ] (t c : ℝ) (μ σ ζ : ι → κ → ℝ) :
    ((∑ d, ∑ i, (-((μ i d - ζ i d) * (μ i d - ζ i d))) * σ i d)
        - (-(∑ d, ((((∑ i, ζ i d * ζ i d) * c) * ∑ i, σ i d
              - (t * ((∑ i, ζ i d) * c)) * ∑ i, μ i d * σ i d) + ∑ i, (μ i d * μ i d) * σ i d)))) * c
      = (∑ i, ∑ d, ((-((μ i d - ζ i d) * (μ i d - ζ i d))) * σ i d
          - (-((((∑ i', ζ i' d * ζ i' d) * c) - (t * μ i d) * ((∑ i', ζ i' d) * c)) + μ i d * μ i d)) * σ i d)) * c := by
  congr 1
  rw [Finset.sum_comm (s := (Finset.univ : Finset ι)) (t := (Finset.univ : Finset κ))]
  simp only [Finset.sum_sub_distrib, sum_neg_real, Finset.sum_neg_distrib]

/-! ### The two forms agree on finite data -/

/-- On finite inputs (every entry a real, `n` a nonzero real) the blocked form of the estimate is the row-by-row form. -/
theorem kerVal_eq_refVal (two n : EReal) (mu s z : Fin 16384 → Fin 1024 → EReal)
    (htwo : ∃ r : ℝ, two = (r : EReal)) (hn : ∃ r : ℝ, r ≠ 0 ∧ n = (r : EReal))
    (hmu : ∀ i d, ∃ r : ℝ, mu i d = (r : EReal)) (hs : ∀ i d, ∃ r : ℝ, s i d = (r : EReal))
    (hz : ∀ i d, ∃ r : ℝ, z i d = (r : EReal)) :
    kerVal two n mu s z = refVal two n mu s z := by
  obtain ⟨t, rfl⟩ := htwo
  obtain ⟨N, hN, rfl⟩ := hn
  choose μ hμ using hmu
  choose σ hσ using hs
  choose ζ hζ using hz
  obtain rfl : mu = fun i d => ((μ i d : ℝ) : EReal) := funext fun i => funext fun d => hμ i d
  obtain rfl : s = fun i d => ((σ i d : ℝ) : EReal) := funext fun i => funext fun d => hσ i d
  obtain rfl : z = fun i d => ((ζ i d : ℝ) : EReal) := funext fun i => funext fun d => hζ i d
  simp only [kerVal, refVal, posT, negT, meanCol, colsum_eq, sum_acc, ← EReal.coe_mul, ← EReal.coe_sub,
    ← EReal.coe_add, ← EReal.coe_neg, coe_sum, Ideal.div_coe hN]
  rw [EReal.coe_eq_coe_iff]
  exact real_core t (1 / N) μ σ ζ

end Cert.ClubSpec

end
-- ==== Proof.Consts.lean ====
/-
  The three float literals of the programs, as reals: `0x46800000` is `2¹⁴ = 16384` (the number of rows),
  `0x40000000` is `2` and `0x3F000000` is `1/2`. Each is a normal binary32 pattern with a zero fraction field, so
  its value is `2 ^ (exponent field − 127)`.
-/
import Idealize.ShloMosaic.PureOps.Ideal

noncomputable section

namespace Cert.ClubSpec

open Idealize.ShloMosaic

/-- `0x46800000`: exponent field `141`, value `2 ^ 14`. -/
theorem lit_n : Ideal.ofBits .f32 0x46800000#32 = ((16384 : ℝ) : EReal) := by
  simp [Ideal.ofBits, Ideal.ieee, -EReal.coe_mul]
  norm_num

/-- `0x40000000`: exponent field `128`, value `2 ^ 1`. -/
theorem lit_two : Ideal.ofBits .f32 0x40000000#32 = ((2 : ℝ) : EReal) := by
  simp [Ideal.ofBits, Ideal.ieee, -EReal.coe_mul]
  norm_num

/-- `0x3F000000`: exponent field `126`, value `2 ^ (−1)`. -/
theorem lit_half : Ideal.ofBits .f32 0x3F000000#32 = ((1 / 2 : ℝ) : EReal) := by
  simp [Ideal.ofBits, Ideal.ieee, -EReal.coe_mul]
  norm_num

end Cert.ClubSpec

end
-- ==== Proof.Reals.lean ====
/-
  Finiteness of the perceptron outputs. A sum, a product, and the larger of a real and zero are reals; so every entry
  of a two-layer perceptron of real inputs, weights and biases is a real, and so is `half · exp (−tanh ℓ)` of such an
  entry, the hyperbolic tangent and the exponential of a real being reals.
-/
import Idealize.ShloMosaic.PureOps.Ideal
import proofs.«139930_j47794396070568_2_alg».proof.Proof.Spec

noncomputable section

namespace Cert.ClubSpec

open Idealize.ShloMosaic Idealize.ShloMosaic.ValueIdx

/-- The sum of two reals is a real. -/
theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- The larger of a real and zero is a real. -/
theorem real_max_zero {a : EReal} (ha : ∃ r : ℝ, a = (r : EReal)) : ∃ r : ℝ, max a 0 = (r : EReal) := by
  obtain ⟨x, rfl⟩ := ha
  rcases le_total ((x : ℝ) : EReal) 0 with h | h
  · exact ⟨0, by rw [max_eq_right h]; rfl⟩
  · exact ⟨x, max_eq_left h⟩

/-- A finite sum of reals is a real. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    rw [Finset.sum_insert ha]
    exact real_add (h a (Finset.mem_insert_self a t)) (ih fun i hi => h i (Finset.mem_insert_of_mem hi))

variable {x : Mat 16384 1024} {W1 : Mat 1024 1024} {b1 : Row 1024} {W2 : Mat 1024 1024} {b2 : Row 1024}

/-- The hidden layer of real data is real. -/
theorem hid_real (hx : ∀ j, ∃ r : ℝ, x j = (r : EReal)) (hW1 : ∀ j, ∃ r : ℝ, W1 j = (r : EReal))
    (hb1 : ∀ j, ∃ r : ℝ, b1 j = (r : EReal)) (i : Fin 16384) (k : Fin 1024) :
    ∃ r : ℝ, hid x W1 b1 i k = (r : EReal) :=
  real_max_zero (real_add (real_sum _ _ fun j _ => real_mul (hx _) (hW1 _)) (hb1 _))

/-- The two-layer perceptron of real data is real at every row and feature. -/
theorem ff_real (hx : ∀ j, ∃ r : ℝ, x j = (r : EReal)) (hW1 : ∀ j, ∃ r : ℝ, W1 j = (r : EReal))
    (hb1 : ∀ j, ∃ r : ℝ, b1 j = (r : EReal)) (hW2 : ∀ j, ∃ r : ℝ, W2 j = (r : EReal))
    (hb2 : ∀ j, ∃ r : ℝ, b2 j = (r : EReal)) (i : Fin 16384) (d : Fin 1024) :
    ∃ r : ℝ, ff x W1 b1 W2 b2 i d = (r : EReal) :=
  real_add (real_sum _ _ fun k _ => real_mul (hid_real hx hW1 hb1 i k) (hW2 _)) (hb2 _)

/-- `half · exp (−tanh ℓ)` of the perceptron `ℓ` of real data, `half` a real, is real. -/
theorem sigma_real {half : EReal} (hhalf : ∃ r : ℝ, half = (r : EReal))
    (hx : ∀ j, ∃ r : ℝ, x j = (r : EReal)) (hW1 : ∀ j, ∃ r : ℝ, W1 j = (r : EReal))
    (hb1 : ∀ j, ∃ r : ℝ, b1 j = (r : EReal)) (hW2 : ∀ j, ∃ r : ℝ, W2 j = (r : EReal))
    (hb2 : ∀ j, ∃ r : ℝ, b2 j = (r : EReal)) (i : Fin 16384) (d : Fin 1024) :
    ∃ r : ℝ, sigma half x W1 b1 W2 b2 i d = (r : EReal) := by
  obtain ⟨l, hl⟩ := ff_real hx hW1 hb1 hW2 hb2 i d
  refine real_mul hhalf ⟨Real.exp (-(Real.tanh l)), ?_⟩
  rw [hl, Ideal.tanh_coe, ← EReal.coe_neg, Ideal.exp_coe]

end Cert.ClubSpec

end
-- ==== Proof.Finite.lean ====
/-
  From the precondition to real-valued arguments. The precondition is the conjunction, over the ten float arguments, of
  `all (|a| < +∞)`: a reduction by `and` of the element-wise comparison of the absolute value against the pattern
  `0x7F800000`, which is `+∞`. A reduction by `and` that came out `1` met `1` at every index, and `max x (−x) < ⊤`
  rules out both infinities, so every entry of every argument is (the coercion of) a real.
-/
import proofs.«139930_j47794396070568_2_alg».proof.Pre_finite_inputs
import Idealize.ShloMosaic.Lib.ReduceAll
import Idealize.ShloMosaic.Lib.ValueIdx

noncomputable section

namespace Cert.ClubFinite

open Idealize.ShloMosaic Cert.Pre_finite_inputs

/-- A rank-0 array has one index. -/
instance : Subsingleton S_.Idx := ⟨fun _ _ => funext fun d => d.elim0⟩

/-- The pattern `0x7F800000` is `+∞`. -/
theorem inf_eq_top : Ideal.ofBits .f32 0x7F800000#32 = (⊤ : EReal) := by
  simp [Ideal.ofBits, Ideal.ieee]

/-- An extended real whose absolute value is below `+∞` is a real. -/
theorem real_of_abs_lt (x : EReal)
    (h : Ideal.cmp .olt (max x (-x)) (Ideal.ofBits .f32 0x7F800000#32) = 1#1) : ∃ r : ℝ, x = (r : EReal) := by
  rw [inf_eq_top] at h
  have hlt : max x (-x) < ⊤ := by
    by_contra hn
    simp [Ideal.cmp, hn] at h
  induction x using EReal.rec with
  | bot => simp at hlt
  | coe r => exact ⟨r, rfl⟩
  | top => simp at hlt

variable [Facts]

/-- `all (|a| < +∞) = 1` makes every entry of `a` a real. -/
theorem all_real {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
        (cmpf .olt (Host.absf a) (broadcastInDim s ![] hb (constant (F := Ideal) S_ .f32 0x7F800000#32)))
        (constantI S_ 1 1#1) hr hu j = 1#1) :
    ∀ i, ∃ r : ℝ, a i = (r : EReal) := fun i =>
  real_of_abs_lt (a i) (Host.reduce_andi_all _ _ hr hu j e i)

/-- The precondition decoded: each of the ten arguments is real at every index. -/
theorem finite_of_pre (a0 a1 : FVec Ideal S16384x1024 .f32) (a2 : FVec Ideal S1024x1024 .f32)
    (a3 : FVec Ideal S1024 .f32) (a4 : FVec Ideal S1024x1024 .f32) (a5 : FVec Ideal S1024 .f32)
    (a6 : FVec Ideal S1024x1024 .f32) (a7 : FVec Ideal S1024 .f32) (a8 : FVec Ideal S1024x1024 .f32)
    (a9 : FVec Ideal S1024 .f32)
    (h : fn (F := Ideal) a0 a1 a2 a3 a4 a5 a6 a7 a8 a9 = fun _ => 1#1) :
    (∀ j, ∃ r : ℝ, a0 j = (r : EReal)) ∧ (∀ j, ∃ r : ℝ, a1 j = (r : EReal)) ∧ (∀ j, ∃ r : ℝ, a2 j = (r : EReal))
      ∧ (∀ j, ∃ r : ℝ, a3 j = (r : EReal)) ∧ (∀ j, ∃ r : ℝ, a4 j = (r : EReal)) ∧ (∀ j, ∃ r : ℝ, a5 j = (r : EReal))
      ∧ (∀ j, ∃ r : ℝ, a6 j = (r : EReal)) ∧ (∀ j, ∃ r : ℝ, a7 j = (r : EReal)) ∧ (∀ j, ∃ r : ℝ, a8 j = (r : EReal))
      ∧ (∀ j, ∃ r : ℝ, a9 j = (r : EReal)) := by
  have e := congrFun h ValueIdx.ix0
  dsimp only [fn, fn_part1, fn_part2] at e
  simp only [andi, IntOp.andi_eq_one] at e
  obtain ⟨⟨⟨⟨⟨⟨⟨⟨⟨h0, h1⟩, h2⟩, h3⟩, h4⟩, h5⟩, h6⟩, h7⟩, h8⟩, h9⟩ := e
  exact ⟨all_real a0 _ _ _ _ h0, all_real a1 _ _ _ _ h1, all_real a2 _ _ _ _ h2, all_real a3 _ _ _ _ h3,
    all_real a4 _ _ _ _ h4, all_real a5 _ _ _ _ h5, all_real a6 _ _ _ _ h6, all_real a7 _ _ _ _ h7,
    all_real a8 _ _ _ _ h8, all_real a9 _ _ _ _ h9⟩

end Cert.ClubFinite

end
-- ==== Proof.Assemble.lean ====
/-
  The assembly of the claim.

  Both idealized programs end at the same estimate. The row-by-row program's run ends at `refVal` of the perceptron of
  the mean branch, the inverse of twice the variance, and the second input; the blocked program's run ends at `kerVal`
  of the same three. The precondition makes every argument entry a real, hence every perceptron output and every
  variance term a real, the three literals are the reals `2`, `16384 ≠ 0` and `1/2`, and on real data the two forms
  of the estimate are equal. The frames of the three programs are the generated ones (the row-by-row program's is its
  run, forgetting the result), and the idealization rewrote nothing.
-/
import proofs.«139930_j47794396070568_2_alg».proof.Defs
import proofs.«139930_j47794396070568_2_alg».proof.Proof.Gen.Kernel
import proofs.«139930_j47794396070568_2_alg».proof.Proof.Gen.Kernel.Frame
import proofs.«139930_j47794396070568_2_alg».proof.Proof.Gen.KernelIdeal
import proofs.«139930_j47794396070568_2_alg».proof.Proof.Gen.KernelIdeal.Frame
import proofs.«139930_j47794396070568_2_alg».proof.Proof.Gen.ReferenceIdeal
import proofs.«139930_j47794396070568_2_alg».proof.Proof.Gen.Pre_finite_inputs
import proofs.«139930_j47794396070568_2_alg».proof.Proof.RefValue
import proofs.«139930_j47794396070568_2_alg».proof.Proof.Algebra
import proofs.«139930_j47794396070568_2_alg».proof.Proof.Consts
import proofs.«139930_j47794396070568_2_alg».proof.Proof.Reals
import proofs.«139930_j47794396070568_2_alg».proof.Proof.Finite
import proofs.«139930_j47794396070568_2_alg».proof.Proof.Spec

noncomputable section

namespace Cert.Proof.Assemble

open Idealize.ShloMosaic Idealize.SL.Sem

/-- The blocked program's run: every weakly fair execution terminates with the result at `kerVal` of the perceptron of
    the mean branch, the inverse of twice the variance and the second input, and the arguments unchanged. -/
abbrev KerRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v28)
        = (fun _ => Cert.ClubSpec.kerVal (Ideal.ofBits .f32 0x40000000#32) (Ideal.ofBits .f32 0x46800000#32)
            (Cert.ClubSpec.ff (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
            (Cert.ClubSpec.sigma (Ideal.ofBits .f32 0x3F000000#32) (m ((c.tc : Thread Cert.KernelIdeal.nD Cert.KernelIdeal.τ).loc Cert.KernelIdeal.main_arg0)) (m ((c.tc : Thread Cert.KernelIdeal.nD Cert.KernelIdeal.τ).loc Cert.KernelIdeal.main_arg6))
              (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
            (fun i d => (m ((c.tc : Thread Cert.KernelIdeal.nD Cert.KernelIdeal.τ).loc Cert.KernelIdeal.main_arg1)) (ValueIdx.ix2 i d)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

/-- The two idealized programs, from memories that agree on the arguments, end with equal results. -/
theorem algebraic_of (hker : KerRun) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => (fun _ => Cert.ClubSpec.kerVal (Ideal.ofBits .f32 0x40000000#32) (Ideal.ofBits .f32 0x46800000#32)
            (Cert.ClubSpec.ff (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
            (Cert.ClubSpec.sigma (Ideal.ofBits .f32 0x3F000000#32) (m ((c.tc : Thread Cert.KernelIdeal.nD Cert.KernelIdeal.τ).loc Cert.KernelIdeal.main_arg0)) (m ((c.tc : Thread Cert.KernelIdeal.nD Cert.KernelIdeal.τ).loc Cert.KernelIdeal.main_arg6))
              (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
            (fun i d => (m ((c.tc : Thread Cert.KernelIdeal.nD Cert.KernelIdeal.τ).loc Cert.KernelIdeal.main_arg1)) (ValueIdx.ix2 i d))), hker m ρ, ?_⟩
  refine (θ_run Cert.ReferenceIdeal.defs _ _).mono (fun _ h c => ⟨(h c).1.trans ?_, (h c).2⟩)
    (Cert.ReferenceIdeal.RefValue.run m' ρ')
  obtain ⟨g0, g1, g2, g3, g4, g5, g6, g7, g8, g9⟩ := hagree c
  rw [g0, g1, g2, g3, g4, g5, g6, g7, g8, g9]
  obtain ⟨f0, f1, f2, f3, f4, f5, f6, f7, f8, f9⟩ := Cert.ClubFinite.finite_of_pre _ _ _ _ _ _ _ _ _ _ (hpre c)
  funext _
  exact (Cert.ClubSpec.kerVal_eq_refVal _ _ _ _ _ ⟨2, Cert.ClubSpec.lit_two⟩
    ⟨16384, by norm_num, Cert.ClubSpec.lit_n⟩ (Cert.ClubSpec.ff_real f0 f2 f3 f4 f5)
    (Cert.ClubSpec.sigma_real ⟨1 / 2, Cert.ClubSpec.lit_half⟩ f0 f6 f7 f8 f9) (fun i d => f1 _)).symm

/-- The bit-level program's frame: the generated one. -/
theorem frame_k : Cert.frame_Kernel := fun m ρ _ => Cert.Kernel.Gen.frame m ρ

/-- The blocked program's frame: the generated one. -/
theorem frame_ki : Cert.frame_KernelIdeal := fun m ρ _ => Cert.KernelIdeal.Gen.frame m ρ

/-- The row-by-row program's frame: its run, forgetting the result. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- The whole claim, from the blocked program's run. -/
theorem claim_of (hker : KerRun) : Cert.Claim :=
  ⟨Cert.Kernel.Gen.facts, Cert.KernelIdeal.Gen.facts, Cert.ReferenceIdeal.Gen.facts, Cert.Pre_finite_inputs.Gen.facts,
    frame_k, frame_ki, frame_ri, preserves, algebraic_of hker⟩

end Cert.Proof.Assemble

end
-- ==== Proof.lean ====
/-
  The blocked estimator and the row-by-row estimator compute the same number.

  Both programs run two two-layer perceptrons on the first input: `mu` and, through a hyperbolic tangent,
  `s = ½ · exp (−tanh ·)`. The row-by-row program forms, for every row `i` and feature `d`, the positive term
  `−(mu − z)² · s` and the negative term `−((E2 − 2 · mu · E1) + mu²) · s` with `E1`, `E2` the column means of the second
  input `z` and of `z²`, and averages the row sums of their difference. The blocked program walks the batch in two
  halves of sixteen blocks of 512 rows, accumulates per half the column sums of the positive term, of `z`, `z²`,
  `s`, `mu · s` and `mu² · s`, adds the halves, and combines `E2 · S0 − 2 · E1 · S1 + S2` column by column.

  Over the extended reals the two agree once every input is a real number: then `mu`, `s` and `z` are real-valued,
  sums over the rows may be regrouped by half and block, and multiplication distributes over the row sums
  (`Cert.ClubSpec.kerVal_eq_refVal`). A change of float format is the identity there, a matrix product into a zero
  accumulator is the host's contraction, and a lane sum is the host's sum, so each program's result is read off its
  run as one term of the argument arrays (`Cert.KernelIdeal.KerRun.run`, `Cert.ReferenceIdeal.RefValue.run`). The
  three frames are the generated ones; nothing was rewritten by the idealization, so it is preserved trivially.
-/
import proofs.«139930_j47794396070568_2_alg».proof.Defs
import proofs.«139930_j47794396070568_2_alg».proof.Proof.Gen.Kernel
import proofs.«139930_j47794396070568_2_alg».proof.Proof.Gen.Kernel.Skeleton
import proofs.«139930_j47794396070568_2_alg».proof.Proof.Gen.Kernel.Launch
import proofs.«139930_j47794396070568_2_alg».proof.Proof.Gen.Kernel.Points
import proofs.«139930_j47794396070568_2_alg».proof.Proof.Gen.Kernel.Frame
import proofs.«139930_j47794396070568_2_alg».proof.Proof.Gen.KernelIdeal
import proofs.«139930_j47794396070568_2_alg».proof.Proof.Gen.KernelIdeal.Skeleton
import proofs.«139930_j47794396070568_2_alg».proof.Proof.Gen.KernelIdeal.Launch
import proofs.«139930_j47794396070568_2_alg».proof.Proof.Gen.KernelIdeal.Points
import proofs.«139930_j47794396070568_2_alg».proof.Proof.Gen.KernelIdeal.Frame
import proofs.«139930_j47794396070568_2_alg».proof.Proof.Gen.ReferenceIdeal
import proofs.«139930_j47794396070568_2_alg».proof.Proof.Gen.ReferenceIdeal.Run
import proofs.«139930_j47794396070568_2_alg».proof.Proof.Gen.ReferenceIdeal.Read
import proofs.«139930_j47794396070568_2_alg».proof.Proof.Gen.Pre_finite_inputs
import proofs.«139930_j47794396070568_2_alg».proof.Proof.KerRun
import proofs.«139930_j47794396070568_2_alg».proof.Proof.Assemble
import Idealize.ShloMosaic.Adequacy
import Idealize.ShloMosaic.Init

noncomputable section

namespace Cert.Proof

/-- The five claims: the three frames, the trivial preservation, and the equality of the two results. -/
theorem claim : Cert.Claim := Cert.Proof.Assemble.claim_of Cert.KernelIdeal.KerRun.run

end Cert.Proof

end
